-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x20x768 : Shape := ⟨3, ![64, 20, 768]⟩
abbrev S64x768x64x64 : Shape := ⟨4, ![64, 768, 64, 64]⟩
abbrev S64x64x64 : Shape := ⟨3, ![64, 64, 64]⟩
abbrev S64x20 : Shape := ⟨2, ![64, 20]⟩
abbrev S_ : Shape := ⟨0, ![]⟩

class Facts : Prop where
  bcast_S_S64x20x768 : S_.BroadcastsInDim S64x20x768 (![] : Fin 0 → Fin S64x20x768.rank)
  reducesTo_S64x20x768_S_d0_1_2 : S64x20x768.ReducesTo [0, 1, 2] S_
  h_S_ : 0 < S_.numel
  bcast_S_S64x768x64x64 : S_.BroadcastsInDim S64x768x64x64 (![] : Fin 0 → Fin S64x768x64x64.rank)
  reducesTo_S64x768x64x64_S_d0_1_2_3 : S64x768x64x64.ReducesTo [0, 1, 2, 3] S_

variable [Facts]

def fn {F : FTy → Type} [FloatOps F] (main_arg0 : FVec F S64x20x768 .f32) (main_arg1 : FVec F S64x768x64x64 .f32) (main_arg2 : IVec S64x64x64 32) (main_arg3 : IVec S64x20 32) : IVec S_ 1 :=
  let main_v0 : FVec F S64x20x768 .f32 := Host.absf main_arg0
  let main_cst : FVec F S_ .f32 := constant S_ .f32 0x7F800000#32
  let main_v1 : FVec F S64x20x768 .f32 := broadcastInDim S64x20x768 ![] bcast_S_S64x20x768 main_cst
  let main_v2 : IVec S64x20x768 1 := cmpf .olt main_v0 main_v1
  let main_c : IVec S_ 1 := constantI S_ 1 1#1
  let main_v3 : IVec S_ 1 := (fun x v => Host.reduce IntOp.andi x v reducesTo_S64x20x768_S_d0_1_2 h_S_) main_v2 main_c
  let main_v4 : FVec F S64x768x64x64 .f32 := Host.absf main_arg1
  let main_cst_0 : FVec F S_ .f32 := constant S_ .f32 0x7F800000#32
  let main_v5 : FVec F S64x768x64x64 .f32 := broadcastInDim S64x768x64x64 ![] bcast_S_S64x768x64x64 main_cst_0
  let main_v6 : IVec S64x768x64x64 1 := cmpf .olt main_v4 main_v5
  let main_c_1 : IVec S_ 1 := constantI S_ 1 1#1
  let main_v7 : IVec S_ 1 := (fun x v => Host.reduce IntOp.andi x v reducesTo_S64x768x64x64_S_d0_1_2_3 h_S_) main_v6 main_c_1
  let main_v8 : IVec S_ 1 := andi main_v3 main_v7
  main_v8
-- ==== Kernel.lean ====
abbrev S64x20x768 : Shape := ⟨3, ![64, 20, 768]⟩
abbrev S64x768x64x64 : Shape := ⟨4, ![64, 768, 64, 64]⟩
abbrev S64x64x64 : Shape := ⟨3, ![64, 64, 64]⟩
abbrev S64x20 : Shape := ⟨2, ![64, 20]⟩
abbrev S64x768x4096 : Shape := ⟨3, ![64, 768, 4096]⟩
abbrev S64x1x4096 : Shape := ⟨3, ![64, 1, 4096]⟩
abbrev S64x1x20 : Shape := ⟨3, ![64, 1, 20]⟩
abbrev S1x20x768 : Shape := ⟨3, ![1, 20, 768]⟩
abbrev S1x768x1024 : Shape := ⟨3, ![1, 768, 1024]⟩
abbrev S1x1x1024 : Shape := ⟨3, ![1, 1, 1024]⟩
abbrev S1x1x20 : Shape := ⟨3, ![1, 1, 20]⟩
abbrev S20x1 : Shape := ⟨2, ![20, 1]⟩
abbrev S20x768 : Shape := ⟨2, ![20, 768]⟩
abbrev S20 : Shape := ⟨1, ![20]⟩
abbrev S768x1024 : Shape := ⟨2, ![768, 1024]⟩
abbrev S20x1024 : Shape := ⟨2, ![20, 1024]⟩
abbrev S1x1024 : Shape := ⟨2, ![1, 1024]⟩
abbrev S1x20 : Shape := ⟨2, ![1, 20]⟩
abbrev S_ : Shape := ⟨0, ![]⟩

abbrev nBuf : Space → Nat
  | .hbm => 17
  | .vmem => 11
  | .smem => 0
  | _ => 0

abbrev bufTy : (tb : Table) → Fin (tcTables nBuf tb) → BufTy
  | .hbm, ⟨0, _⟩ => ⟨S64x20x768, .f32⟩
  | .hbm, ⟨1, _⟩ => ⟨S64x768x64x64, .f32⟩
  | .hbm, ⟨2, _⟩ => ⟨S64x64x64, .i32⟩
  | .hbm, ⟨3, _⟩ => ⟨S64x20, .i32⟩
  | .hbm, ⟨4, _⟩ => ⟨S64x768x4096, .f32⟩
  | .hbm, ⟨5, _⟩ => ⟨S64x1x4096, .i32⟩
  | .hbm, ⟨6, _⟩ => ⟨S64x1x20, .f32⟩
  | .hbm, ⟨7, _⟩ => ⟨S64x20, .f32⟩
  | .hbm, ⟨8, _⟩ => ⟨S_, .i32⟩
  | .hbm, ⟨9, _⟩ => ⟨S64x20, .i32⟩
  | .hbm, ⟨10, _⟩ => ⟨S64x20, .i1⟩
  | .hbm, ⟨11, _⟩ => ⟨S64x20, .f32⟩
  | .hbm, ⟨12, _⟩ => ⟨S64x20, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x20x768, .f32⟩
  | .local _ .vmem, ⟨1, _⟩ => ⟨S1x20x768, .f32⟩
  | .local _ .vmem, ⟨2, _⟩ => ⟨S1x768x1024, .f32⟩
  | .local _ .vmem, ⟨3, _⟩ => ⟨S1x768x1024, .f32⟩
  | .local _ .vmem, ⟨4, _⟩ => ⟨S1x1x1024, .i32⟩
  | .local _ .vmem, ⟨5, _⟩ => ⟨S1x1x1024, .i32⟩
  | .local _ .vmem, ⟨6, _⟩ => ⟨S1x1x20, .f32⟩
  | .local _ .vmem, ⟨7, _⟩ => ⟨S1x1x20, .f32⟩
  | .local _ .vmem, ⟨8, _⟩ => ⟨S20x1, .f32⟩
  | .local _ .vmem, ⟨9, _⟩ => ⟨S20x1, .f32⟩
  | .local _ .vmem, ⟨10, _⟩ => ⟨S20x1, .f32⟩
  | _, _ => ⟨S64x20x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_27 : BitVec 32 := 0#32
  let v55 : BitVec 1 := Scalar.cmpi .ne v54 c0_i32_27
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x768x64x64_S64x768x4096 : S64x768x64x64.ShapeCasts S64x768x4096
  shapeCasts_S64x64x64_S64x1x4096 : S64x64x64.ShapeCasts S64x1x4096
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x20x768_S1x20x768_0_0_0 : ∀ a, (![0, 0, 0] : Fin 3 → Nat) a + S1x20x768.size a ≤ S1x20x768.size a
  h_S1x20x768 : 0 < S1x20x768.numel
  shapeCasts_S1x20x768_S20x768 : S1x20x768.ShapeCasts S20x768
  reduces_S20x768_S20 : S20x768.Reduces [1] S20
  shapeCasts_S20_S20x1 : S20.ShapeCasts S20x1
  broadcasts_S20x1_S20x768 : S20x1.Broadcasts S20x768
  bitsLt_bf16_f32 : FTy.bits .bf16 < FTy.bits .f32
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S20x1_d0_w32 : S20x1.Iotas .tc 32 [0]
  broadcasts_S1x1024_S20x1024 : S1x1024.Broadcasts S20x1024
  broadcasts_S20x1_S20x1024 : S20x1.Broadcasts S20x1024
  natLt_1_32 : 1 < 32
  reduces_S20x1024_S20 : S20x1024.Reduces [1] S20
  shapeCasts_S20x1_S1x20 : S20x1.ShapeCasts S1x20
  inb_S1x1x20_S1x1x20_0_0_0 : ∀ a, (![0, 0, 0] : Fin 3 → Nat) a + S1x1x20.size a ≤ S1x1x20.size a
  h_S1x1x20 : 0 < S1x1x20.numel
  shapeCasts_S1x1x20_S1x20 : S1x1x20.ShapeCasts S1x20
  shapeCasts_S1x20_S1x1x20 : S1x20.ShapeCasts S1x1x20
  shapeCasts_S64x1x20_S64x20 : S64x1x20.ShapeCasts S64x20
  bcast_S_S64x20 : S_.BroadcastsInDim S64x20 (![] : Fin 0 → Fin S64x20.rank)
  reducesTo_S64x20_S_d0_1 : S64x20.ReducesTo [0, 1] S_
  h_S_ : 0 < S_.numel
  dot_S20x768_S768x1024_S20x1024_1_0_0_1_n_n_wf : DotDims.WF S20x768 S768x1024 S20x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x768.size a ≤ S64x20x768.size a
  hwx0_0 : ∀ i : grid0.Coords, EltTy.bits .f32 = 32 ∨ (Rect.block (s := S64x20x768) S1x20x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1024.size a ≤ S64x768x4096.size a
  hwx0_1 : ∀ i : grid0.Coords, EltTy.bits .f32 = 32 ∨ (Rect.block (s := S64x768x4096) S1x768x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x4096.size a
  hwx0_2 : ∀ i : grid0.Coords, EltTy.bits .i32 = 32 ∨ (Rect.block (s := S64x1x4096) S1x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x20.size a ≤ S64x1x20.size a
  hwx0_3 : ∀ i : grid0.Coords, EltTy.bits .f32 = 32 ∨ (Rect.block (s := S64x1x20) S1x1x20.size (cc0_transform_3 i) (hinb0_3 i)).WholeWords (EltTy.packing .f32)

variable [Facts₀]

def dot_S20x768_S768x1024_S20x1024_1_0_0_1_n_n : DotDims S20x768 S768x1024 S20x1024 where
  lhsContracting := [1]
  rhsContracting := [0]
  lhsNonContracting := [0]
  rhsNonContracting := [1]
  lhsBatch := []
  rhsBatch := []
  wf := dot_S20x768_S768x1024_S20x1024_1_0_0_1_n_n_wf

abbrev win0_0 : Pipeline.Window sig grid0 :=
  Pipeline.Window.ofSpec (Memref.whole main_arg0) S1x20x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x20x768 : Shape := ⟨3, ![64, 20, 768]⟩
abbrev S64x768x64x64 : Shape := ⟨4, ![64, 768, 64, 64]⟩
abbrev S64x64x64 : Shape := ⟨3, ![64, 64, 64]⟩
abbrev S64x20 : Shape := ⟨2, ![64, 20]⟩
abbrev S_ : Shape := ⟨0, ![]⟩
abbrev S64x20x1 : Shape := ⟨3, ![64, 20, 1]⟩
abbrev S64x768x4096 : Shape := ⟨3, ![64, 768, 4096]⟩
abbrev S64x20x4096 : Shape := ⟨3, ![64, 20, 4096]⟩
abbrev S64x1x4096 : Shape := ⟨3, ![64, 1, 4096]⟩
abbrev S20 : Shape := ⟨1, ![20]⟩
abbrev S1x20x1 : Shape := ⟨3, ![1, 20, 1]⟩

abbrev nBuf : Space → Nat
  | .hbm => 58
  | .vmem => 0
  | .smem => 0
  | _ => 0

abbrev bufTy : (tb : Table) → Fin (tcTables nBuf tb) → BufTy
  | .hbm, ⟨0, _⟩ => ⟨S64x20x768, .f32⟩
  | .hbm, ⟨1, _⟩ => ⟨S64x768x64x64, .f32⟩
  | .hbm, ⟨2, _⟩ => ⟨S64x64x64, .i32⟩
  | .hbm, ⟨3, _⟩ => ⟨S64x20, .i32⟩
  | .hbm, ⟨4, _⟩ => ⟨S64x20x768, .f32⟩
  | .hbm, ⟨5, _⟩ => ⟨S_, .f32⟩
  | .hbm, ⟨6, _⟩ => ⟨S64x20, .f32⟩
  | .hbm, ⟨7, _⟩ => ⟨S64x20x1, .f32⟩
  | .hbm, ⟨8, _⟩ => ⟨S64x20x1, .f32⟩
  | .hbm, ⟨9, _⟩ => ⟨S_, .f32⟩
  | .hbm, ⟨10, _⟩ => ⟨S64x20x1, .f32⟩
  | .hbm, ⟨11, _⟩ => ⟨S64x20x1, .f32⟩
  | .hbm, ⟨12, _⟩ => ⟨S64x20x768, .f32⟩
  | .hbm, ⟨13, _⟩ => ⟨S64x20x768, .f32⟩
  | .hbm, ⟨14, _⟩ => ⟨S64x768x4096, .f32⟩
  | .hbm, ⟨15, _⟩ => ⟨S64x20x4096, .f32⟩
  | .hbm, ⟨16, _⟩ => ⟨S_, .f32⟩
  | .hbm, ⟨17, _⟩ => ⟨S64x20x4096, .f32⟩
  | .hbm, ⟨18, _⟩ => ⟨S64x20x4096, .f32⟩
  | .hbm, ⟨19, _⟩ => ⟨S64x20x4096, .f32⟩
  | .hbm, ⟨20, _⟩ => ⟨S_, .f32⟩
  | .hbm, ⟨21, _⟩ => ⟨S64x20, .f32⟩
  | .hbm, ⟨22, _⟩ => ⟨S64x20x1, .f32⟩
  | .hbm, ⟨23, _⟩ => ⟨S_, .f32⟩
  | .hbm, ⟨24, _⟩ => ⟨S64x20x1, .f32⟩
  | .hbm, ⟨25, _⟩ => ⟨S64x20x1, .f32⟩
  | .hbm, ⟨26, _⟩ => ⟨S64x20x4096, .f32⟩
  | .hbm, ⟨27, _⟩ => ⟨S64x20x4096, .f32⟩
  | .hbm, ⟨28, _⟩ => ⟨S64x20x4096, .f32⟩
  | .hbm, ⟨29, _⟩ => ⟨S64x20x4096, .f32⟩
  | .hbm, ⟨30, _⟩ => ⟨S64x1x4096, .i32⟩
  | .hbm, ⟨31, _⟩ => ⟨S20, .i32⟩
  | .hbm, ⟨32, _⟩ => ⟨S_, .i32⟩
  | .hbm, ⟨33, _⟩ => ⟨S20, .i32⟩
  | .hbm, ⟨34, _⟩ => ⟨S20, .i32⟩
  | .hbm, ⟨35, _⟩ => ⟨S1x20x1, .i32⟩
  | .hbm, ⟨36, _⟩ => ⟨S64x20x4096, .i32⟩
  | .hbm, ⟨37, _⟩ => ⟨S64x20x4096, .i32⟩
  | .hbm, ⟨38, _⟩ => ⟨S64x20x4096, .i1⟩
  | .hbm, ⟨39, _⟩ => ⟨S64x20x4096, .f32⟩
  | .hbm, ⟨40, _⟩ => ⟨S64x20x4096, .f32⟩
  | .hbm, ⟨41, _⟩ => ⟨S_, .f32⟩
  | .hbm, ⟨42, _⟩ => ⟨S64x20, .f32⟩
  | .hbm, ⟨43, _⟩ => ⟨S_, .f32⟩
  | .hbm, ⟨44, _⟩ => ⟨S64x20, .f32⟩
  | .hbm, ⟨45, _⟩ => ⟨S_, .f32⟩
  | .hbm, ⟨46, _⟩ => ⟨S64x20, .f32⟩
  | .hbm, ⟨47, _⟩ => ⟨S64x20, .f32⟩
  | .hbm, ⟨48, _⟩ => ⟨S64x20, .f32⟩
  | .hbm, ⟨49, _⟩ => ⟨S_, .i32⟩
  | .hbm, ⟨50, _⟩ => ⟨S64x20, .i32⟩
  | .hbm, ⟨51, _⟩ => ⟨S64x20, .i1⟩
  | .hbm, ⟨52, _⟩ => ⟨S64x20, .f32⟩
  | .hbm, ⟨53, _⟩ => ⟨S64x20, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S64x20x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  reducesTo_S64x20x768_S64x20_d2 : S64x20x768.ReducesTo [2] S64x20
  h_S_ : 0 < S_.numel
  bcast_S64x20_S64x20x1_0_1 : S64x20.BroadcastsInDim S64x20x1 (![0, 1] : Fin 2 → Fin S64x20x1.rank)
  bcast_S_S64x20x1 : S_.BroadcastsInDim S64x20x1 (![] : Fin 0 → Fin S64x20x1.rank)
  bcast_S64x20x1_S64x20x768_0_1_2 : S64x20x1.BroadcastsInDim S64x20x768 (![0, 1, 2] : Fin 3 → Fin S64x20x768.rank)
  shapeCasts_S64x768x64x64_S64x768x4096 : S64x768x64x64.ShapeCasts S64x768x4096
  bcast_S_S64x20x4096 : S_.BroadcastsInDim S64x20x4096 (![] : Fin 0 → Fin S64x20x4096.rank)
  reducesTo_S64x20x4096_S64x20_d2 : S64x20x4096.ReducesTo [2] S64x20
  bcast_S64x20x1_S64x20x4096_0_1_2 : S64x20x1.BroadcastsInDim S64x20x4096 (![0, 1, 2] : Fin 3 → Fin S64x20x4096.rank)
  shapeCasts_S64x64x64_S64x1x4096 : S64x64x64.ShapeCasts S64x1x4096
  bcast_S_S20 : S_.BroadcastsInDim S20 (![] : Fin 0 → Fin S20.rank)
  bcast_S20_S1x20x1_1 : S20.BroadcastsInDim S1x20x1 (![1] : Fin 1 → Fin S1x20x1.rank)
  bcast_S64x1x4096_S64x20x4096_0_1_2 : S64x1x4096.BroadcastsInDim S64x20x4096 (![0, 1, 2] : Fin 3 → Fin S64x20x4096.rank)
  bcast_S1x20x1_S64x20x4096_0_1_2 : S1x20x1.BroadcastsInDim S64x20x4096 (![0, 1, 2] : Fin 3 → Fin S64x20x4096.rank)
  bcast_S_S64x20 : S_.BroadcastsInDim S64x20 (![] : Fin 0 → Fin S64x20.rank)
  reducesTo_S64x20_S_d0_1 : S64x20.ReducesTo [0, 1] S_
  dot_S64x20x768_S64x768x4096_S64x20x4096_2_1_1_2_0_0_wf : DotDims.WF S64x20x768 S64x768x4096 S64x20x4096 [2] [1] [1] [2] [0] [0]

variable [Facts₀]

def dot_S64x20x768_S64x768x4096_S64x20x4096_2_1_1_2_0_0 : DotDims S64x20x768 S64x768x4096 S64x20x4096 where
  lhsContracting := [2]
  rhsContracting := [1]
  lhsNonContracting := [1]
  rhsNonContracting := [2]
  lhsBatch := [0]
  rhsBatch := [0]
  wf := dot_S64x20x768_S64x768x4096_S64x20x4096_2_1_1_2_0_0_wf

class Facts : Prop extends Facts₀ where

variable [Facts]
-- ==== Proof.Blocks.lean ====
/-
  The windows' blocks, read as entries of their arrays.

  Grid point `t` (of 64 · 4) works on image `t / 4` and position tile `t % 4`. Its class-token block is row `t / 4` of the
  [64, 20, 768] tokens, its patch block the columns `1024 · (t % 4) … + 1023` of image `t / 4` in the [64, 768, 4096] patches,
  its mask block the same columns of the [64, 1, 4096] masks; the output block is row `t / 4` of the [64, 1, 20] result and is
  written back only after the image's last tile (`t % 4 = 3`). Every row of the result is therefore some flushing point's block.
-/
import proofs.«175878_j38319698215597_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The printed index maps over the grid: image `t / 4` on the first axis; the position tile `t % 4` on the last axis of
    the patch and mask windows; `0` elsewhere. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- The output window is written back exactly after an image's last tile. -/
theorem flush3_iff : ∀ t : Fin cfg0.N, (cfg0.win 3).flush t = true ↔ t.val % 4 = 3 :=
  (by decide +kernel : ∀ t : Fin grid0.N, _)

theorem N_eq : cfg0.N = 256 := N_0

/-- The class-token block of point `t`: row `t / 4` of the tokens. -/
theorem blk0_apply (c : Dev nD) (t : Fin cfg0.N) (q : Fin 20) (d : Fin 768) (hb : t.val / 4 < 64) :
    iblk m c 0 t (ix3 (0 : Fin 1) q d) = V m c main_arg0 (ix3 ⟨t.val / 4, hb⟩ q d) := by
  obtain ⟨e0, e1, e2, -⟩ := idx_facts t
  show V m c main_arg0 (((cfg0.win 0).blk t).view.emb (ix3 (0 : Fin 1) q d)) = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 20 + 1 * q.val = q.val; omega
  | ⟨2, _⟩ => show win0_0.index t (2 : Fin 3) * 768 + 1 * d.val = d.val; omega

/-- The patch block of point `t`: columns `1024 · (t % 4) + l` of image `t / 4`. -/
theorem blk1_apply (c : Dev nD) (t : Fin cfg0.N) (d : Fin 768) (l : Fin 1024) (hb : t.val / 4 < 64)
    (hn : (t.val % 4) * 1024 + l.val < 4096) :
    iblk m c 1 t (ix3 (0 : Fin 1) d l) = V m c main_v0 (ix3 ⟨t.val / 4, hb⟩ d ⟨(t.val % 4) * 1024 + l.val, hn⟩) := by
  obtain ⟨-, -, -, e0, e1, e2, -⟩ := idx_facts t
  show V m c main_v0 (((cfg0.win 1).blk t).view.emb (ix3 (0 : Fin 1) d l)) = V m c main_v0 _
  refine congrArg (V m c main_v0) (funext fun a => Fin.ext ?_)
  match a with
  | ⟨0, _⟩ => show win0_1.index t (0 : Fin 3) * 1 + 1 * 0 = t.val / 4; omega
  | ⟨1, _⟩ => show win0_1.index t (1 : Fin 3) * 768 + 1 * d.val = d.val; omega
  | ⟨2, _⟩ => show win0_1.index t (2 : Fin 3) * 1024 + 1 * l.val = (t.val % 4) * 1024 + l.val; omega

/-- The mask block of point `t`: the same columns of the masks. -/
theorem blk2_apply (c : Dev nD) (t : Fin cfg0.N) (l : Fin 1024) (hb : t.val / 4 < 64)
    (hn : (t.val % 4) * 1024 + l.val < 4096) :
    iblk m c 2 t (ix3 (0 : Fin 1) (0 : Fin 1) l) = V m c main_v1 (ix3 ⟨t.val / 4, hb⟩ (0 : Fin 1) ⟨(t.val % 4) * 1024 + l.val, hn⟩) := by
  obtain ⟨-, -, -, -, -, -, e0, e1, e2, -⟩ := idx_facts t
  show V m c main_v1 (((cfg0.win 2).blk t).view.emb (ix3 (0 : Fin 1) (0 : Fin 1) l)) = V m c main_v1 _
  refine congrArg (V m c main_v1) (funext fun a => Fin.ext ?_)
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * l.val = (t.val % 4) * 1024 + l.val; omega

/-- Where the output block of point `t` sits in the [64, 1, 20] result: row `t / 4`. -/
theorem emb3_apply (t : Fin cfg0.N) (y : S1x1x20.Idx) (hb : t.val / 4 < 64) :
    ((cfg0.win 3).blk t).view.emb y = ix3 ⟨t.val / 4, hb⟩ (0 : Fin 1) (y 2) := by
  obtain ⟨-, -, -, -, -, -, -, -, -, e0, e1, e2⟩ := idx_facts t
  funext a; apply Fin.ext
  match a with
  | ⟨0, _⟩ => show win0_3.index t (0 : Fin 3) * 1 + 1 * (y 0).val = t.val / 4; have h0 : (y 0).val < 1 := (y 0).isLt; omega
  | ⟨1, _⟩ => show win0_3.index t (1 : Fin 3) * 1 + 1 * (y 1).val = 0; have h1 : (y 1).val < 1 := (y 1).isLt; omega
  | ⟨2, _⟩ => show win0_3.index t (2 : Fin 3) * 20 + 1 * (y 2).val = (y 2).val; omega

/-- An index of the result is in point `t`'s block iff each coordinate is in the block's range on its axis. -/
theorem mem_blk3 (t : Fin cfg0.N) (i : S64x1x20.Idx) :
    i ∈ ((cfg0.win 3).blk t).view.set ↔ ∀ a : Fin 3, win0_3.index t a * S1x1x20.size a ≤ (i a).val ∧ (i a).val < win0_3.index t a * S1x1x20.size a + S1x1x20.size a := by
  show i ∈ ((View.whole main_v2).slice (win0_3.rect t)).set ↔ _
  rw [View.set_slice_whole, Rect.mem_set_unit]
  exact Iff.rfl

/-- Every row of the result is the block of a flushing point: row `b` is written back by point `4 b + 3`. -/
theorem cover3 (i : S64x1x20.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 20 := (i 2).isLt
  have hN : cfg0.N = 256 := N_0
  let t : Fin cfg0.N := ⟨4 * (i 0).val + 3, by omega⟩
  have tv : t.val = 4 * (i 0).val + 3 := rfl
  obtain ⟨-, -, -, -, -, -, -, -, -, e0, e1, e2⟩ := idx_facts t
  refine ⟨t, (flush3_iff t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 20 ≤ (i 2).val ∧ (i 2).val < win0_3.index t (2 : Fin 3) * 20 + 20; omega

end Cert.KernelIdeal.Blocks

end
-- ==== Proof.Spec.lean ====
/-
  The per-class loss, stated once, away from both programs.

  For one image `b` and one class `c` let `s n` be the score of position `n` (the class token's row, divided by
  `max ‖row‖ ε₁`, against column `n` of the patch tokens, the whole divided by the temperature `1`) and `f n` the flag
  "the mask at `n` is class `c + 1`" as a number. With `D = ∑ exp (s n) + ε₂` the loss of the pair is written in two ways:

  * position by position, `(∑ f n · (-(log (exp (s n) / D)))) / (∑ f n + ε₂)` (`pointLoss`);
  * from three running sums, `((0 - ∑ f n · s n) + log D · ∑ f n) / (∑ f n + ε₂)` (`streamLoss`).

  They agree when every score is a real number, because then `log (exp s / D) = s - log D` and a real factor distributes
  over a finite sum of reals; that is proved in `Algebra.lean`. Here are only the definitions.
-/
import Idealize.ShloMosaic.PureOps.Ideal
import Idealize.ShloMosaic.Lib.ValueIdx

noncomputable section

namespace Cert.Loss

open Idealize.ShloMosaic Idealize.ShloMosaic.ValueIdx

/-- The float literals both programs share, as the extended reals their words denote:
    `1` (the temperature), `ε₁ ≈ 1e-8` (under the norm), `ε₂ ≈ 1e-4` (beside the two denominators). -/
abbrev oneW : EReal := Ideal.ofBits .f32 0x3F800000#32
abbrev epsNorm : EReal := Ideal.ofBits .f32 0x322BCC77#32
abbrev epsDen : EReal := Ideal.ofBits .f32 0x38D1B717#32

/-- What a row `a` is divided by: its Euclidean norm, but at least `ε₁`. -/
def rowScale {K : Type} [Fintype K] (a : K → EReal) : EReal :=
  max (Ideal.sqrt (∑ e, a e * a e)) epsNorm

/-- The score of a row `a` against a column `p`: the normalised row's inner product with the column, over the temperature. -/
def score {K : Type} [Fintype K] (a p : K → EReal) : EReal :=
  Ideal.div (∑ d, Ideal.div (a d) (rowScale a) * p d) oneW

/-- The flag of a mask word `w` for class `c` (classes are numbered from one): `1` when `w = c + 1`, else `0`. -/
def flag (w : BitVec 32) (c : Fin 20) : EReal :=
  (((IntOp.cmpi .eq w (1#32 + BitVec.ofNat 32 c.val)).toNat : ℝ) : EReal)

/-- The loss from the three sums a single pass over the positions accumulates. -/
def streamLoss {ι : Type} [Fintype ι] (s f : ι → EReal) : EReal :=
  Ideal.div ((0 - ∑ n, f n * s n) + Ideal.log ((∑ n, Ideal.exp (s n)) + epsDen) * ∑ n, f n) ((∑ n, f n) + epsDen)

/-- The loss position by position: the flagged mean of `-log (softmax-like ratio)`. -/
def pointLoss {ι : Type} [Fintype ι] (s f : ι → EReal) : EReal :=
  Ideal.div (∑ n, f n * -(Ideal.log (Ideal.div (Ideal.exp (s n)) ((∑ k, Ideal.exp (s k)) + epsDen)))) ((∑ n, f n) + epsDen)

/-- The scores and flags of image `b`, class `c`, over the 4096 positions, from the class tokens `x0`, the patch tokens
    laid out as [64, 768, 4096] and the masks laid out as [64, 1, 4096]. -/
def scores (x0 : (⟨3, ![64, 20, 768]⟩ : Shape).Idx → EReal) (x1 : (⟨3, ![64, 768, 4096]⟩ : Shape).Idx → EReal)
    (b : Fin 64) (c : Fin 20) (n : Fin 4096) : EReal :=
  score (fun d : Fin 768 => x0 (ix3 b c d)) (fun d : Fin 768 => x1 (ix3 b d n))

def flags (x2 : (⟨3, ![64, 1, 4096]⟩ : Shape).Idx → BitVec 32) (b : Fin 64) (c : Fin 20) (n : Fin 4096) : EReal :=
  flag (x2 (ix3 b (0 : Fin 1) n)) c

/-- The [64, 20] array of per-class losses, position by position (the reference's arrangement) … -/
def perClassPoint (x0 : (⟨3, ![64, 20, 768]⟩ : Shape).Idx → EReal) (x1 : (⟨3, ![64, 768, 4096]⟩ : Shape).Idx → EReal)
    (x2 : (⟨3, ![64, 1, 4096]⟩ : Shape).Idx → BitVec 32) (b : Fin 64) (c : Fin 20) : EReal :=
  pointLoss (scores x0 x1 b c) (flags x2 b c)

/-- … and from the three running sums (the kernel's arrangement). -/
def perClassStream (x0 : (⟨3, ![64, 20, 768]⟩ : Shape).Idx → EReal) (x1 : (⟨3, ![64, 768, 4096]⟩ : Shape).Idx → EReal)
    (x2 : (⟨3, ![64, 1, 4096]⟩ : Shape).Idx → BitVec 32) (b : Fin 64) (c : Fin 20) : EReal :=
  streamLoss (scores x0 x1 b c) (flags x2 b c)

end Cert.Loss

end
-- ==== Proof.PayReadScore.lean ====
/-
  The kernel body's scores and flags read at an index, at the ideal values: the block of scores is, at class `c` and
  lane `l`, the score of the class token's row `c` against the patch tokens' column `l`; the block of flags is, there,
  the flag of the mask word at `l` for class `c`.
-/
import proofs.«175878_j38319698215597_2_alg».proof.Proof.Gen.KernelIdeal.Skeleton
import proofs.«175878_j38319698215597_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen

/-! ## Layout operations, the lane sum and the matrix product at an index given by coordinates -/

/-- A vector `[a]` viewed as a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an `[a, b]` array, read at `c`, is the sum over `l` of the array at `(c, l)`. -/
private theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (c : Fin a) :
    multiReduction (F := Ideal) .add [1] ⟨1, ![a]⟩ src acc h hφ hacc (ix1 c) = ∑ l : Fin b, src (ix2 c l) :=
  (Ideal.multiReduction_add_single src acc h hφ hacc (ix1 c)).trans
    (Finset.sum_congr rfl fun l _ => congrArg src (funext fun ax => Fin.ext (by
      match ax with
      | ⟨0, _⟩ => rfl
      | ⟨1, _⟩ => rfl)))

/-- The square root of a vector at an index is the square root of its element. -/
private theorem sqrt_apply {s : Shape} {φ : FTy} (a : FVec Ideal s φ) (i : s.Idx) : sqrt a i = Ideal.sqrt (a i) := rfl
/-- An integer comparison of vectors at an index compares the elements. -/
private theorem cmpi_apply {s : Shape} {w : ℕ} (p : CmpIPredicate) (a b : IVec s w) (i : s.Idx) :
    cmpi p a b i = IntOp.cmpi p (a i) (b i) := rfl

/-- The `[20, 768] × [768, 1024]` product into a zero accumulator reads, at `(c, l)`, the sum over `d` of the
    left operand at `(c, d)` times the right operand at `(d, l)`. -/
private theorem matmul_ix2_apply (lhs : FVec Ideal S20x768 .bf16) (rhs : FVec Ideal S768x1024 .bf16) (c : Fin 20) (l : Fin 1024) :
    FloatOps.matmul dot_S20x768_S768x1024_S20x1024_1_0_0_1_n_n none lhs rhs (constant (F := Ideal) S20x1024 .f32 0x00000000#32) (ix2 c l)
      = ∑ d : Fin 768, lhs (ix2 c d) * rhs (ix2 d l) := by
  rw [Ideal.matmul_constant_zero_apply, ← Equiv.sum_comp (ValueIdx.contrEquiv1 dot_S20x768_S768x1024_S20x1024_1_0_0_1_n_n 768 rfl rfl).symm]
  refine Finset.sum_congr rfl fun k _ => ?_
  have hk := ValueIdx.contrEquiv1_symm_val dot_S20x768_S768x1024_S20x1024_1_0_0_1_n_n 768 rfl rfl k
  have l0 : ∀ q : dot_S20x768_S768x1024_S20x1024_1_0_0_1_n_n.contr.Idx,
      (dot_S20x768_S768x1024_S20x1024_1_0_0_1_n_n.lhsIdx (ix2 c l) q 0).val = c.val := fun q => by
    unfold DotDims.lhsIdx
    rw [dif_neg (show ¬(0 : Fin S20x768.rank) ∈ dot_S20x768_S768x1024_S20x1024_1_0_0_1_n_n.lhsBatch by decide),
      dif_pos (show (0 : Fin S20x768.rank) ∈ dot_S20x768_S768x1024_S20x1024_1_0_0_1_n_n.lhsNonContracting by decide)]
    rfl
  have r1 : ∀ q : dot_S20x768_S768x1024_S20x1024_1_0_0_1_n_n.contr.Idx,
      (dot_S20x768_S768x1024_S20x1024_1_0_0_1_n_n.rhsIdx (ix2 c l) q 1).val = l.val := fun q => by
    unfold DotDims.rhsIdx
    rw [dif_neg (show ¬(1 : Fin S768x1024.rank) ∈ dot_S20x768_S768x1024_S20x1024_1_0_0_1_n_n.rhsBatch by decide),
      dif_pos (show (1 : Fin S768x1024.rank) ∈ dot_S20x768_S768x1024_S20x1024_1_0_0_1_n_n.rhsNonContracting by decide)]
    rfl
  have el : dot_S20x768_S768x1024_S20x1024_1_0_0_1_n_n.lhsIdx (ix2 c l)
      ((ValueIdx.contrEquiv1 dot_S20x768_S768x1024_S20x1024_1_0_0_1_n_n 768 rfl rfl).symm k) = ix2 c k :=
    funext fun a => Fin.ext (by
      match a with
      | ⟨0, _⟩ => exact l0 _
      | ⟨1, _⟩ => exact (dot_S20x768_S768x1024_S20x1024_1_0_0_1_n_n.lhsIdx_val_of_single rfl _ _).trans hk)
  have er : dot_S20x768_S768x1024_S20x1024_1_0_0_1_n_n.rhsIdx (ix2 c l)
      ((ValueIdx.contrEquiv1 dot_S20x768_S768x1024_S20x1024_1_0_0_1_n_n 768 rfl rfl).symm k) = ix2 k l :=
    funext fun a => Fin.ext (by
      match a with
      | ⟨0, _⟩ => exact (dot_S20x768_S768x1024_S20x1024_1_0_0_1_n_n.rhsIdx_val_of_single rfl _ _).trans hk
      | ⟨1, _⟩ => exact r1 _)
  rw [el, er]

/-- A one-bit word widened to 32 bits and read signed is the bit as a natural number. -/
private theorem toInt_setWidth_one (b : BitVec 1) : (b.setWidth 32).toInt = (b.toNat : ℤ) := by
  by_cases h : b = 1#1
  · subst h; decide
  · have h0 := eq_zero_of_ne_one h
    subst h0; decide

/-! ## The payloads -/

variable (x0 : Vec Ideal S1x20x768 .f32) (x1 : Vec Ideal S1x768x1024 .f32) (x2 : Vec Ideal S1x1x1024 .i32)

/-- The block of scores at class `c` and lane `l`: row `c` of the class tokens, divided by the larger of its norm and
    `ε₁`, against column `l` of the patch tokens, over the temperature. -/
theorem pay8_apply (c : Fin 20) (l : Fin 1024) :
    k0_pay8 (F := Ideal) x0 x1 (ix2 c l) = Cert.Loss.score (fun d : Fin 768 => x0 (ix3 (0 : Fin 1) c d)) (fun d : Fin 768 => x1 (ix3 (0 : Fin 1) d l)) := by
  unfold Cert.Loss.score Cert.Loss.rowScale
  simp only [k0_pay8]
  rw [divf_apply]
  refine congrArg₂ Ideal.div ?_ rfl
  refine (matmul_ix2_apply _ _ c l).trans (Finset.sum_congr rfl fun d _ => ?_)
  refine congrArg₂ (· * ·) ?_ (shapeCast_1ab_ab_apply x1 _ d l)
  rw [truncf_apply, divf_apply]
  refine congrArg₂ Ideal.div (shapeCast_1ab_ab_apply x0 _ c d) ?_
  rw [broadcastTo_a1_ab_apply, maximumf_apply]
  refine congrArg₂ max ?_ rfl
  rw [sqrt_apply, shapeCast_a_a1_apply]
  refine congrArg Ideal.sqrt ((rowSum_apply _ _ reduces_S20x768_S20 _ _ c).trans (Finset.sum_congr rfl fun e _ => ?_))
  rw [mulf_apply, shapeCast_1ab_ab_apply]

/-- The block of flags at class `c` and lane `l`: `1` when the mask word at `l` is `c + 1`, else `0`. -/
theorem pay9_apply (c : Fin 20) (l : Fin 1024) :
    k0_pay9 (F := Ideal) x2 (ix2 c l) = Cert.Loss.flag (x2 (ix3 (0 : Fin 1) (0 : Fin 1) l)) c := by
  unfold Cert.Loss.flag
  simp only [k0_pay9]
  rw [sitofp_apply, extui_apply, cmpi_apply, broadcastTo_1b_ab_apply, shapeCast_1ab_ab_apply, broadcastTo_a1_ab_apply]
  have hk : addi (iota .tc S20x1 32 [0] iota_S20x1_d0_w32) (broadcast S20x1 1#32) (ix2 c (0 : Fin 1))
      = 1#32 + BitVec.ofNat 32 c.val := by
    show iota .tc S20x1 32 [0] iota_S20x1_d0_w32 (ix2 c (0 : Fin 1)) + 1#32 = _
    rw [iota_single_apply]
    exact BitVec.add_comm _ _
  rw [hk]
  show ((((IntOp.cmpi .eq (x2 (ix3 (0 : Fin 1) (0 : Fin 1) l)) (1#32 + BitVec.ofNat 32 c.val)).setWidth 32).toInt : ℝ) : EReal) = _
  rw [toInt_setWidth_one, Int.cast_natCast]

end Cert.KernelIdeal.PayRead

end
-- ==== Proof.TileRead.lean ====
/-
  A tile of scores and of flags, at a grid point, is the specification's.

  At point `t` the body's score of class `q` and lane `l` is the specification's score of image `t / 4`, class `q`, position
  `1024 · (t % 4) + l`: the class-token block is that image's rows and the patch block that tile's columns. The same for the flags
  and the mask block.
-/
import proofs.«175878_j38319698215597_2_alg».proof.Proof.Blocks
import proofs.«175878_j38319698215597_2_alg».proof.Proof.PayReadScore
import proofs.«175878_j38319698215597_2_alg».proof.Proof.Spec

set_option maxRecDepth 16384

noncomputable section

namespace Cert.KernelIdeal.TileRead

open Idealize.ShloMosaic Idealize.ShloMosaic.TcCoe Idealize.ShloMosaic.ValueIdx
open Idealize.SL Idealize.SL.Sem
open Cert.KernelIdeal Cert.KernelIdeal.Gen Cert.KernelIdeal.Blocks

variable (m : (ℓ : Loc nD τ sig) → Buf (Elt Ideal) ℓ)

/-- The scores tile of point `t`, at class `q` and lane `l`: the specification's score at position `n = 1024 · (t % 4) + l` of image `b = t / 4`. -/
theorem tile_score (c : Dev nD) (t : Fin cfg0.N) (b : Fin 64) (hb : t.val / 4 = b.val) (q : Fin 20) (l : Fin 1024)
    (n : Fin 4096) (hn : n.val = (t.val % 4) * 1024 + l.val) :
    k0_pay8 (F := Ideal) (iblk m c 0 t) (iblk m c 1 t) (ix2 q l)
      = Cert.Loss.scores (V m c main_arg0) (V m c main_v0) b q n := by
  have hb' : t.val / 4 < 64 := by have := b.isLt; omega
  have hn' : (t.val % 4) * 1024 + l.val < 4096 := by have := n.isLt; omega
  have eb : (⟨t.val / 4, hb'⟩ : Fin 64) = b := Fin.ext hb
  have en : (⟨(t.val % 4) * 1024 + l.val, hn'⟩ : Fin 4096) = n := Fin.ext hn.symm
  refine (PayRead.pay8_apply (iblk m c 0 t) (iblk m c 1 t) q l).trans ?_
  have ea : (fun d : Fin 768 => iblk m c 0 t (ix3 (0 : Fin 1) q d) : Fin 768 → EReal) = fun d => V m c main_arg0 (ix3 b q d) :=
    funext fun d => by rw [blk0_apply m c t q d hb', eb]
  have ep : (fun d : Fin 768 => iblk m c 1 t (ix3 (0 : Fin 1) d l) : Fin 768 → EReal) = fun d => V m c main_v0 (ix3 b d n) :=
    funext fun d => by rw [blk1_apply m c t d l hb' hn', eb, en]
  exact congrArg₂ (Cert.Loss.score (K := Fin 768)) ea ep

/-- The flags tile of point `t`, likewise. -/
theorem tile_flag (c : Dev nD) (t : Fin cfg0.N) (b : Fin 64) (hb : t.val / 4 = b.val) (q : Fin 20) (l : Fin 1024)
    (n : Fin 4096) (hn : n.val = (t.val % 4) * 1024 + l.val) :
    k0_pay9 (F := Ideal) (iblk m c 2 t) (ix2 q l) = Cert.Loss.flags (V m c main_v1) b q n := by
  have hb' : t.val / 4 < 64 := by have := b.isLt; omega
  have hn' : (t.val % 4) * 1024 + l.val < 4096 := by have := n.isLt; omega
  have eb : (⟨t.val / 4, hb'⟩ : Fin 64) = b := Fin.ext hb
  have en : (⟨(t.val % 4) * 1024 + l.val, hn'⟩ : Fin 4096) = n := Fin.ext hn.symm
  refine (PayRead.pay9_apply (iblk m c 2 t) q l).trans ?_
  unfold Cert.Loss.flags
  rw [blk2_apply m c t l hb' hn', eb, en]

end Cert.KernelIdeal.TileRead

end
-- ==== Proof.Pieces.lean ====
import proofs.«175878_j38319698215597_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-! What each case of the body leaves in the three carried accumulators and in the output block, as the body's
    arithmetic (the payload functions) of the point's input blocks and of the accumulators the point before left.
    At the first position tile the accumulators restart from the zero splat; at the later tiles they continue; at the
    last tile the output block is the closing formula of the three accumulators just updated. -/

theorem hz2 : (![0, 0] : Fin S20x1.rank → Nat) = fun _ => 0 := by funext a; fin_cases a <;> rfl
theorem hz3 : (![0, 0, 0] : Fin S1x1x20.rank → Nat) = fun _ => 0 := by funext a; fin_cases a <;> rfl

/-- Closes "the pieces read back are the payload": the last store through the whole buffer wins, a read back through
    the whole buffer of one such store is its payload, and a load of a whole input buffer is its contents. -/
macro "piece_close" : tactic => `(tactic| (
  first
    | rw [View.canon_cons_unit_zero hz2]
    | rw [View.canon_unit_zero hz2]
    | rw [View.canon_cons_unit_zero hz3]
    | rw [View.canon_unit_zero hz3]
  simp only [View.readCov_unit_zero (S := S20x1) _ hz2, View.readAt_eq_ld, Memref.IsWhole.read_unread,
    View.ld_unit_zero (S := S1x20x768) hz3, View.ld_unit_zero (S := S1x768x1024) hz3, View.ld_unit_zero (S := S1x1x1024) hz3,
    View.ld_unit_zero (S := S20x1) hz2]))

theorem sA0 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : cond0_0 i) (hc1 : ¬cond0_1 i)
    (x0 : Vec F S1x20x768 .f32) (x1 : Vec F S1x768x1024 .f32) (x2 : Vec F S1x1x1024 .i32) :
    sout0_A_0 c i arg2 harg2 arg3 harg3 arg4 harg4 arg5 harg5 arg6 harg6 arg7 harg7 arg8 harg8 hc0 hc1 x0 x1 x2 = k0_pay1 (k0_pay10 x0 x1 (k0_pay5 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  piece_close

theorem sA1 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : cond0_0 i) (hc1 : ¬cond0_1 i)
    (x0 : Vec F S1x20x768 .f32) (x1 : Vec F S1x768x1024 .f32) (x2 : Vec F S1x1x1024 .i32) :
    sout0_A_1 c i arg2 harg2 arg3 harg3 arg4 harg4 arg5 harg5 arg6 harg6 arg7 harg7 arg8 harg8 hc0 hc1 x0 x1 x2 = k0_pay2 (k0_pay8 x0 x1) (k0_pay9 x2) (k0_pay6 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  piece_close

theorem sA2 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : cond0_0 i) (hc1 : ¬cond0_1 i)
    (x0 : Vec F S1x20x768 .f32) (x1 : Vec F S1x768x1024 .f32) (x2 : Vec F S1x1x1024 .i32) :
    sout0_A_2 c i arg2 harg2 arg3 harg3 arg4 harg4 arg5 harg5 arg6 harg6 arg7 harg7 arg8 harg8 hc0 hc1 x0 x1 x2 = k0_pay3 (k0_pay9 (F := F) x2) (k0_pay7 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  piece_close

theorem sB0 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : ¬cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_B_0 c i arg2 harg2 arg3 harg3 arg4 harg4 arg5 harg5 arg6 harg6 arg7 harg7 arg8 harg8 hc0 hc1 x0 x1 x2 xs0 xs1 xs2 = k0_pay1 (k0_pay10 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  piece_close

theorem sB1 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : ¬cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_B_1 c i arg2 harg2 arg3 harg3 arg4 harg4 arg5 harg5 arg6 harg6 arg7 harg7 arg8 harg8 hc0 hc1 x0 x1 x2 xs0 xs1 xs2 = k0_pay2 (k0_pay8 x0 x1) (k0_pay9 x2) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  piece_close

theorem sB2 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : ¬cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_B_2 c i arg2 harg2 arg3 harg3 arg4 harg4 arg5 harg5 arg6 harg6 arg7 harg7 arg8 harg8 hc0 hc1 x0 x1 x2 xs0 xs1 xs2 = k0_pay3 (k0_pay9 (F := F) x2) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  piece_close

theorem sC0 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_C_0 c i arg2 harg2 arg3 harg3 arg4 harg4 arg5 harg5 arg6 harg6 arg7 harg7 arg8 harg8 hc0 hc1 x0 x1 x2 xs0 xs1 xs2 = k0_pay1 (k0_pay10 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  piece_close

theorem sC1 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_C_1 c i arg2 harg2 arg3 harg3 arg4 harg4 arg5 harg5 arg6 harg6 arg7 harg7 arg8 harg8 hc0 hc1 x0 x1 x2 xs0 xs1 xs2 = k0_pay2 (k0_pay8 x0 x1) (k0_pay9 x2) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  piece_close

theorem sC2 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    sout0_C_2 c i arg2 harg2 arg3 harg3 arg4 harg4 arg5 harg5 arg6 harg6 arg7 harg7 arg8 harg8 hc0 hc1 x0 x1 x2 xs0 xs1 xs2 = k0_pay3 (k0_pay9 (F := F) x2) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  piece_close

theorem oC3 (c : Dev nD) (i : grid0.Coords) (arg2 : Memref sig .tc .vmem S1x20x768 .f32) (harg2 : arg2.IsWhole) (arg3 : Memref sig .tc .vmem S1x768x1024 .f32) (harg3 : arg3.IsWhole) (arg4 : Memref sig .tc .vmem S1x1x1024 .i32) (harg4 : arg4.IsWhole) (arg5 : Memref sig .tc .vmem S1x1x20 .f32) (harg5 : arg5.IsWhole) (arg6 : Memref sig .tc .vmem S20x1 .f32) (harg6 : arg6.IsWhole) (arg7 : Memref sig .tc .vmem S20x1 .f32) (harg7 : arg7.IsWhole) (arg8 : Memref sig .tc .vmem S20x1 .f32) (harg8 : arg8.IsWhole) (hc0 : ¬cond0_0 i) (hc1 : cond0_1 i)
    (x0 : Vec F S1x20x768 .f32) (x1 : Vec F S1x768x1024 .f32) (x2 : Vec F S1x1x1024 .i32) (xs0 : Vec F S20x1 .f32) (xs1 : Vec F S20x1 .f32) (xs2 : Vec F S20x1 .f32) :
    out0_C_3 c i arg2 harg2 arg3 harg3 arg4 harg4 arg5 harg5 arg6 harg6 arg7 harg7 arg8 harg8 hc0 hc1 x0 x1 x2 xs0 xs1 xs2 = k0_pay4 (k0_pay1 (k0_pay10 x0 x1 xs0)) (k0_pay2 (k0_pay8 x0 x1) (k0_pay9 x2) xs1) (k0_pay3 (k0_pay9 (F := F) x2) xs2) (k0_pay3 (k0_pay9 (F := F) x2) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  piece_close

end Cert.KernelIdeal.Pieces

end
-- ==== Proof.Accum.lean ====
/-
  One image's four position tiles, chained.

  The kernel keeps three [20, 1] accumulators across the four tiles of an image: the sum of exp(score), the sum of
  flag · score and the sum of the flags, each over the tile's 1024 positions and added to what the tile before left; the first
  tile starts them from zero and the last tile closes them into the image's 20 per-class losses. Here: one `step` of the
  triple per tile, the triple after each tile as `step` of the triple before it, and the output block after the last tile
  as `close` of four nested steps from zero.
-/
import proofs.«175878_j38319698215597_2_alg».proof.Proof.Pieces

set_option maxRecDepth 16384

noncomputable section

namespace Cert.KernelIdeal.Accum

open Idealize.ShloMosaic Idealize.ShloMosaic.TcCoe
open Idealize.SL Idealize.SL.Sem
open Cert.KernelIdeal Cert.KernelIdeal.Gen Cert.KernelIdeal.Pieces

variable {F : FTy → Type} [FloatOps F]

/-- The three accumulators: Σ exp(score), Σ flag · score, Σ flag, each a [20, 1] column. -/
abbrev Acc (F : FTy → Type) [FloatOps F] := Vec F S20x1 .f32 × Vec F S20x1 .f32 × Vec F S20x1 .f32

/-- The accumulators as the first tile resets them: three zero columns. -/
def zero3 : Acc F := (k0_pay5, k0_pay6, k0_pay7)

/-- One tile: each accumulator plus the tile's lane sum, from the class-token block `x0`, the patch block `x1` and the mask block `x2`. -/
def step (x0 : Vec F S1x20x768 .f32) (x1 : Vec F S1x768x1024 .f32) (x2 : Vec F S1x1x1024 .i32) (s : Acc F) : Acc F :=
  (k0_pay1 (k0_pay10 x0 x1 s.1), k0_pay2 (k0_pay8 x0 x1) (k0_pay9 x2) s.2.1, k0_pay3 (k0_pay9 (F := F) x2) s.2.2)

/-- The closing formula: the output block from the three accumulators. -/
def close (s : Acc F) : Vec F S1x1x20 .f32 := k0_pay4 s.1 s.2.1 s.2.2 s.2.2

variable (m : (ℓ : Loc nD τ sig) → Buf (Elt F) ℓ)

/-- The recursion's value depends on the position only. -/
theorem outsAt0_congr (c : Dev nD) {n n' : ℕ} (e : n = n') (h : n < cfg0.N) (h' : n' < cfg0.N) :
    outsAt0 m c n h = outsAt0 m c n' h' := by subst e; rfl

/-- After an image's first tile the accumulators are one step from zero. -/
theorem first_tile (c : Dev nD) (t : Fin cfg0.N) (h : t.val % 4 = 0) :
    (outsAt0 m c t.val t.isLt).2 = step (iblk m c 0 t) (iblk m c 1 t) (iblk m c 2 t) zero3 := by
  have h1 : ¬t.val % 4 = 3 := by omega
  rw [outsAt0_A m c t h h1]
  dsimp only [step, zero3]
  exact Prod.ext (sA0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) (iblk m c 2 t))
    (Prod.ext (sA1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) (iblk m c 2 t))
      (sA2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h) (fun h' => h1 ((hcond0_1 t).mp h')) (iblk m c 0 t) (iblk m c 1 t) (iblk m c 2 t)))

/-- After any later tile they are one step from what the tile before left. -/
theorem later_tile (c : Dev nD) (t : Fin cfg0.N) (h : ¬t.val % 4 = 0) :
    (outsAt0 m c t.val t.isLt).2
      = step (iblk m c 0 t) (iblk m c 1 t) (iblk m c 2 t) (outsAt0 m c (t.val - 1) (Nat.lt_of_le_of_lt (Nat.sub_le _ _) t.isLt)).2 := by
  by_cases h1 : t.val % 4 = 3
  · rw [outsAt0_C m c t h h1]
    dsimp only [step]
    exact Prod.ext (sC0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (Prod.ext (sC1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (sC2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))
  · rw [outsAt0_B m c t h h1]
    dsimp only [step]
    exact Prod.ext (sB0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) (fun h' => h1 ((hcond0_1 t).mp h')) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (Prod.ext (sB1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) (fun h' => h1 ((hcond0_1 t).mp h')) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (sB2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) (fun h' => h1 ((hcond0_1 t).mp h')) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- After an image's last tile the output block is the closing formula of that tile's step. -/
theorem last_tile_out (c : Dev nD) (t : Fin cfg0.N) (h3 : t.val % 4 = 3) :
    (outsAt0 m c t.val t.isLt).1
      = close (step (iblk m c 0 t) (iblk m c 1 t) (iblk m c 2 t) (outsAt0 m c (t.val - 1) (Nat.lt_of_le_of_lt (Nat.sub_le _ _) t.isLt)).2) := by
  have h : ¬t.val % 4 = 0 := by omega
  rw [outsAt0_C m c t h h3]
  dsimp only [step, close]
  exact oC3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h' => h ((hcond0_0 t).mp h')) ((hcond0_1 t).mpr h3) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- THE CHAIN: four consecutive points `t0 … t3` of one image (`t0` its first tile): after the last the output block is the
    closing formula of four nested steps from zero, tile by tile. -/
theorem four_tiles (c : Dev nD) (t0 t1 t2 t3 : Fin cfg0.N) (h0 : t0.val % 4 = 0)
    (h1 : t1.val = t0.val + 1) (h2 : t2.val = t0.val + 2) (h3 : t3.val = t0.val + 3) :
    (outsAt0 m c t3.val t3.isLt).1
      = close (step (iblk m c 0 t3) (iblk m c 1 t3) (iblk m c 2 t3)
          (step (iblk m c 0 t2) (iblk m c 1 t2) (iblk m c 2 t2)
            (step (iblk m c 0 t1) (iblk m c 1 t1) (iblk m c 2 t1)
              (step (iblk m c 0 t0) (iblk m c 1 t0) (iblk m c 2 t0) zero3)))) := by
  rw [last_tile_out m c t3 (by omega),
    outsAt0_congr m c (show t3.val - 1 = t2.val by omega) _ t2.isLt, later_tile m c t2 (by omega),
    outsAt0_congr m c (show t2.val - 1 = t1.val by omega) _ t1.isLt, later_tile m c t1 (by omega),
    outsAt0_congr m c (show t1.val - 1 = t0.val by omega) _ t0.isLt, first_tile m c t0 h0]

end Cert.KernelIdeal.Accum

end
-- ==== Proof.PayRead.lean ====
/-
  The kernel body's arithmetic read at an index, at the ideal values: each payload of the body that does not open the
  matrix product or the flags, as the extended-real expression it computes at one class `c`.
-/
import proofs.«175878_j38319698215597_2_alg».proof.Proof.Gen.KernelIdeal.Skeleton
import proofs.«175878_j38319698215597_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRead

open Idealize.ShloMosaic Idealize.ShloMosaic.ValueIdx Cert.KernelIdeal Cert.KernelIdeal.Gen

/-! ## Layout operations and the lane sum at an index given by coordinates -/

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` viewed as a row `[1, a]` reads, at `(u, i)`, the column at `(i, 0)`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- The sum along the second axis of an `[a, b]` array, read at `c`, is the sum over `l` of the array at `(c, l)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (c : Fin a) :
    multiReduction (F := Ideal) .add [1] ⟨1, ![a]⟩ src acc h hφ hacc (ix1 c) = ∑ l : Fin b, src (ix2 c l) :=
  (Ideal.multiReduction_add_single src acc h hφ hacc (ix1 c)).trans
    (Finset.sum_congr rfl fun l _ => congrArg src (funext fun ax => Fin.ext (by
      match ax with
      | ⟨0, _⟩ => rfl
      | ⟨1, _⟩ => rfl)))

/-- The exponential of a vector at an index is the exponential of its element. -/
theorem exp_apply {s : Shape} {φ : FTy} (a : FVec Ideal s φ) (i : s.Idx) : exp a i = Ideal.exp (a i) := rfl
/-- The logarithm of a vector at an index is the logarithm of its element. -/
theorem log_apply {s : Shape} {φ : FTy} (a : FVec Ideal s φ) (i : s.Idx) : log a i = Ideal.log (a i) := rfl
/-- The square root of a vector at an index is the square root of its element. -/
theorem sqrt_apply {s : Shape} {φ : FTy} (a : FVec Ideal s φ) (i : s.Idx) : sqrt a i = Ideal.sqrt (a i) := rfl
/-- A float literal's scalar at the ideal values is the extended real its word denotes. -/
theorem scalar_ofBits (φ : FTy) (b : BitVec φ.bits) : Scalar.ofBits (F := Ideal) φ b = Ideal.ofBits φ b := rfl

/-! ## The payloads -/

variable (x0 : Vec Ideal S1x20x768 .f32) (x1 : Vec Ideal S1x768x1024 .f32)

/-- The value stored back into the first running sum is the value given. -/
theorem pay1_apply (v : FVec Ideal S20x1 .f32) (j : S20x1.Idx) : k0_pay1 (F := Ideal) v j = v j := by
  simp only [k0_pay1, shapeCast_self]

/-- The second running sum gains, at class `c`, the sum over the lanes of flag times score. -/
theorem pay2_apply (v19 v30 : FVec Ideal S20x1024 .f32) (s : Vec Ideal S20x1 .f32) (c : Fin 20) :
    k0_pay2 (F := Ideal) v19 v30 s (ix2 c (0 : Fin 1)) = s (ix2 c (0 : Fin 1)) + ∑ l : Fin 1024, v30 (ix2 c l) * v19 (ix2 c l) := by
  simp only [k0_pay2, shapeCast_self]
  rw [addf_apply, shapeCast_a_a1_apply]
  exact congrArg (s (ix2 c (0 : Fin 1)) + ·) ((rowSum_apply (mulf v30 v19) _ reduces_S20x1024_S20 _ _ c).trans
    (Finset.sum_congr rfl fun l _ => mulf_apply v30 v19 (ix2 c l)))

/-- The third running sum gains, at class `c`, the sum over the lanes of the flags. -/
theorem pay3_apply (v30 : FVec Ideal S20x1024 .f32) (s : Vec Ideal S20x1 .f32) (c : Fin 20) :
    k0_pay3 (F := Ideal) v30 s (ix2 c (0 : Fin 1)) = s (ix2 c (0 : Fin 1)) + ∑ l : Fin 1024, v30 (ix2 c l) := by
  simp only [k0_pay3, shapeCast_self]
  rw [addf_apply, shapeCast_a_a1_apply]
  exact congrArg (s (ix2 c (0 : Fin 1)) + ·) (rowSum_apply v30 _ reduces_S20x1024_S20 _ _ c)

/-- The stored loss of class `c`, from the three running sums: `((0 - s₁) + log (s₀ + ε₂) · s₂) / (s₃ + ε₂)`. -/
theorem pay4_apply (s0 s1 s2 s3 : Vec Ideal S20x1 .f32) (c : Fin 20) :
    k0_pay4 (F := Ideal) s0 s1 s2 s3 (ix3 (0 : Fin 1) (0 : Fin 1) c)
      = Ideal.div ((0 - s1 (ix2 c (0 : Fin 1))) + Ideal.log (s0 (ix2 c (0 : Fin 1)) + Cert.Loss.epsDen) * s2 (ix2 c (0 : Fin 1))) (s3 (ix2 c (0 : Fin 1)) + Cert.Loss.epsDen) := by
  simp only [k0_pay4]
  rw [shapeCast_ab_1ab_apply, shapeCast_a1_1a_apply]
  show Ideal.div ((Ideal.ofBits .f32 0x00000000#32 - s1 (ix2 c (0 : Fin 1))) + Ideal.log (s0 (ix2 c (0 : Fin 1)) + Cert.Loss.epsDen) * s2 (ix2 c (0 : Fin 1))) (s3 (ix2 c (0 : Fin 1)) + Cert.Loss.epsDen) = _
  rw [Ideal.ofBits_zero_f32]

/-- The three running sums start at zero. -/
theorem pay5_apply (j : S20x1.Idx) : k0_pay5 (F := Ideal) j = 0 := by
  simp only [k0_pay5, shapeCast_self]
  exact Ideal.ofBits_zero_f32
theorem pay6_apply (j : S20x1.Idx) : k0_pay6 (F := Ideal) j = 0 := by
  simp only [k0_pay6, shapeCast_self]
  exact Ideal.ofBits_zero_f32
theorem pay7_apply (j : S20x1.Idx) : k0_pay7 (F := Ideal) j = 0 := by
  simp only [k0_pay7, shapeCast_self]
  exact Ideal.ofBits_zero_f32

/-- The first running sum gains, at class `c`, the sum over the lanes of the exponentials of the scores. -/
theorem pay10_apply (s : Vec Ideal S20x1 .f32) (c : Fin 20) :
    k0_pay10 (F := Ideal) x0 x1 s (ix2 c (0 : Fin 1)) = s (ix2 c (0 : Fin 1)) + ∑ l : Fin 1024, Ideal.exp (k0_pay8 (F := Ideal) x0 x1 (ix2 c l)) := by
  simp only [k0_pay10]
  rw [addf_apply, shapeCast_a_a1_apply]
  exact congrArg (s (ix2 c (0 : Fin 1)) + ·) ((rowSum_apply (exp (k0_pay8 (F := Ideal) x0 x1)) _ reduces_S20x1024_S20 _ _ c).trans
    (Finset.sum_congr rfl fun l _ => exp_apply (k0_pay8 (F := Ideal) x0 x1) (ix2 c l)))

end Cert.KernelIdeal.PayRead

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.TileValue.lean ====
/-
  Four tile steps from zero, closed, read at one class, are the specification's loss from three running sums.

  Each tile adds to each of the three accumulators (the sum of exp(score), the sum of flag · score, the sum of the flags)
  its own sum over the tile's 1024 positions; the first tile starts from the zero column. After four tiles an
  accumulator at class `c` is `(((0 + T₀) + T₁) + T₂) + T₃` with `Tⱼ` the sum over tile `j`. Position `l` of tile `j` is
  position `1024·j + l` of the image, so the four tile sums are the one sum over the 4096 positions; only commutativity
  and associativity of the addition of extended reals are used. The closing formula of the three accumulators is then,
  term by term, the specification's `streamLoss` of the scores and flags.
-/
import proofs.«175878_j38319698215597_2_alg».proof.Proof.Accum
import proofs.«175878_j38319698215597_2_alg».proof.Proof.PayRead
import proofs.«175878_j38319698215597_2_alg».proof.Proof.LibSumBlocks
import proofs.«175878_j38319698215597_2_alg».proof.Proof.Spec

noncomputable section

namespace Cert.KernelIdeal.TileValue

open Idealize.ShloMosaic Idealize.ShloMosaic.ValueIdx Cert.KernelIdeal Cert.KernelIdeal.Gen Cert.KernelIdeal.PayRead

/-- One accumulator after four tiles: four blocks of 1024 addends, added block after block to zero, are the one sum
    over all 4096 positions, block `j` holding positions `1024·j … 1024·j + 1023`. -/
private theorem four_tiles_sum (g : Fin 4096 → EReal) (T0 T1 T2 T3 : Fin 1024 → EReal)
    (h0 : ∀ l : Fin 1024, T0 l = g ⟨l.val, by omega⟩)
    (h1 : ∀ l : Fin 1024, T1 l = g ⟨1024 + l.val, by omega⟩)
    (h2 : ∀ l : Fin 1024, T2 l = g ⟨2048 + l.val, by omega⟩)
    (h3 : ∀ l : Fin 1024, T3 l = g ⟨3072 + l.val, by omega⟩) :
    (((0 + ∑ l, T0 l) + ∑ l, T1 l) + ∑ l, T2 l) + ∑ l, T3 l = ∑ n, g n := by
  rw [Cert.Lib.SumBlocks.sum_blocks 4 1024 4096 rfl g
      (fun t r => ⟨t.val * 1024 + r.val, by have := t.isLt; have := r.isLt; omega⟩) (fun _ _ => rfl),
    Fin.sum_univ_four, zero_add]
  congr 1
  · congr 1
    · congr 1
      · exact Finset.sum_congr rfl fun l _ =>
          (h0 l).trans (congrArg g (Fin.ext (by show l.val = 0 * 1024 + l.val; omega)))
      · exact Finset.sum_congr rfl fun l _ =>
          (h1 l).trans (congrArg g (Fin.ext (by show 1024 + l.val = 1 * 1024 + l.val; omega)))
    · exact Finset.sum_congr rfl fun l _ =>
        (h2 l).trans (congrArg g (Fin.ext (by show 2048 + l.val = 2 * 1024 + l.val; omega)))
  · exact Finset.sum_congr rfl fun l _ =>
      (h3 l).trans (congrArg g (Fin.ext (by show 3072 + l.val = 3 * 1024 + l.val; omega)))

/-- The output block after an image's four tiles, at class `c`, is `streamLoss` of the image's scores `s` and flags `f`,
    given that tile `j`'s score and flag at lane `l` are `s` and `f` at position `1024·j + l`. -/
theorem close_four_steps (a0 a1 a2 a3 : Vec Ideal S1x20x768 .f32) (p0 p1 p2 p3 : Vec Ideal S1x768x1024 .f32)
    (w0 w1 w2 w3 : Vec Ideal S1x1x1024 .i32) (c : Fin 20) (s f : Fin 4096 → EReal)
    (hs0 : ∀ l : Fin 1024, k0_pay8 (F := Ideal) a0 p0 (ix2 c l) = s ⟨l.val, by omega⟩)
    (hs1 : ∀ l : Fin 1024, k0_pay8 (F := Ideal) a1 p1 (ix2 c l) = s ⟨1024 + l.val, by omega⟩)
    (hs2 : ∀ l : Fin 1024, k0_pay8 (F := Ideal) a2 p2 (ix2 c l) = s ⟨2048 + l.val, by omega⟩)
    (hs3 : ∀ l : Fin 1024, k0_pay8 (F := Ideal) a3 p3 (ix2 c l) = s ⟨3072 + l.val, by omega⟩)
    (hf0 : ∀ l : Fin 1024, k0_pay9 (F := Ideal) w0 (ix2 c l) = f ⟨l.val, by omega⟩)
    (hf1 : ∀ l : Fin 1024, k0_pay9 (F := Ideal) w1 (ix2 c l) = f ⟨1024 + l.val, by omega⟩)
    (hf2 : ∀ l : Fin 1024, k0_pay9 (F := Ideal) w2 (ix2 c l) = f ⟨2048 + l.val, by omega⟩)
    (hf3 : ∀ l : Fin 1024, k0_pay9 (F := Ideal) w3 (ix2 c l) = f ⟨3072 + l.val, by omega⟩) :
    Cert.KernelIdeal.Accum.close (F := Ideal) (Cert.KernelIdeal.Accum.step a3 p3 w3 (Cert.KernelIdeal.Accum.step a2 p2 w2
      (Cert.KernelIdeal.Accum.step a1 p1 w1 (Cert.KernelIdeal.Accum.step a0 p0 w0 Cert.KernelIdeal.Accum.zero3)))) (ix3 (0 : Fin 1) (0 : Fin 1) c)
      = Cert.Loss.streamLoss s f := by
  have hD := four_tiles_sum (fun n => Ideal.exp (s n))
    (fun l => Ideal.exp (k0_pay8 (F := Ideal) a0 p0 (ix2 c l))) (fun l => Ideal.exp (k0_pay8 (F := Ideal) a1 p1 (ix2 c l)))
    (fun l => Ideal.exp (k0_pay8 (F := Ideal) a2 p2 (ix2 c l))) (fun l => Ideal.exp (k0_pay8 (F := Ideal) a3 p3 (ix2 c l)))
    (fun l => congrArg Ideal.exp (hs0 l)) (fun l => congrArg Ideal.exp (hs1 l))
    (fun l => congrArg Ideal.exp (hs2 l)) (fun l => congrArg Ideal.exp (hs3 l))
  have hM := four_tiles_sum (fun n => f n * s n)
    (fun l => k0_pay9 (F := Ideal) w0 (ix2 c l) * k0_pay8 (F := Ideal) a0 p0 (ix2 c l))
    (fun l => k0_pay9 (F := Ideal) w1 (ix2 c l) * k0_pay8 (F := Ideal) a1 p1 (ix2 c l))
    (fun l => k0_pay9 (F := Ideal) w2 (ix2 c l) * k0_pay8 (F := Ideal) a2 p2 (ix2 c l))
    (fun l => k0_pay9 (F := Ideal) w3 (ix2 c l) * k0_pay8 (F := Ideal) a3 p3 (ix2 c l))
    (fun l => congrArg₂ (· * ·) (hf0 l) (hs0 l)) (fun l => congrArg₂ (· * ·) (hf1 l) (hs1 l))
    (fun l => congrArg₂ (· * ·) (hf2 l) (hs2 l)) (fun l => congrArg₂ (· * ·) (hf3 l) (hs3 l))
  have hN := four_tiles_sum f
    (fun l => k0_pay9 (F := Ideal) w0 (ix2 c l)) (fun l => k0_pay9 (F := Ideal) w1 (ix2 c l))
    (fun l => k0_pay9 (F := Ideal) w2 (ix2 c l)) (fun l => k0_pay9 (F := Ideal) w3 (ix2 c l)) hf0 hf1 hf2 hf3
  dsimp only [Accum.close, Accum.step, Accum.zero3]
  simp only [pay4_apply, pay1_apply, pay10_apply, pay2_apply, pay3_apply, pay5_apply, pay6_apply, pay7_apply]
  rw [hD, hM, hN]
  rfl

end Cert.KernelIdeal.TileValue

end
-- ==== Proof.KValue.lean ====
/-
  The kernel's output array after the run.

  Window 3 is written back only after an image's last tile; what that point leaves is the closing formula of the four tiles'
  steps from zero (the chain), and the four tiles' scores and flags are the specification's over the image's 4096 positions, so
  the block written back is row `t / 4` of the array of per-class losses in the three-sums arrangement. Every row is some
  flushing point's block: that array is what the region's output holds at the end.
-/
import proofs.«175878_j38319698215597_2_alg».proof.Proof.TileRead
import proofs.«175878_j38319698215597_2_alg».proof.Proof.TileValue

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.Accum Cert.KernelIdeal.TileRead

variable (m : (ℓ : Loc nD τ sig) → Buf (Elt Ideal) ℓ)

/-- The [64, 1, 20] array of per-class losses, in the three-sums arrangement, of the arrays as the region finds them. -/
def G (c : Dev nD) : S64x1x20.Idx → EReal := fun i =>
  Cert.Loss.perClassStream (V m c main_arg0) (V m c main_v0) (V m c main_v1) (i 0) (i 2)

/-- A block of the output window that agrees with `G` class by class, at the point's image, is the point's block of `G`. -/
theorem block_ext (c : Dev nD) (t : Fin cfg0.N) (hb : t.val / 4 < 64) (X : Vec Ideal S1x1x20 .f32)
    (h : ∀ q : Fin 20, X (ix3 (0 : Fin 1) (0 : Fin 1) q) = G m c (ix3 ⟨t.val / 4, hb⟩ (0 : Fin 1) q)) :
    (cfg0.win 3).cut (grid0.coords t) X = ((cfg0.win 3).blk t).view.read (Elt Ideal) (G m c) := by
  funext y
  rw [View.read_apply, emb3_apply t y hb, cast_eq]
  have l0 : (y 0).val < 1 := Nat.lt_of_lt_of_le (y 0).isLt ((cfg0.win 3).xsize_le (grid0.coords t) 0)
  have l1 : (y 1).val < 1 := Nat.lt_of_lt_of_le (y 1).isLt ((cfg0.win 3).xsize_le (grid0.coords t) 1)
  have l2 : (y 2).val < 20 := Nat.lt_of_lt_of_le (y 2).isLt ((cfg0.win 3).xsize_le (grid0.coords t) 2)
  have ex : (cfg0.win 3).xinj (grid0.coords t) y = ix3 (0 : Fin 1) (0 : Fin 1) ⟨(y 2).val, l2⟩ := by
    funext a
    match a with
    | ⟨0, _⟩ => exact Fin.ext (by show (y 0).val = 0; omega)
    | ⟨1, _⟩ => exact Fin.ext (by show (y 1).val = 0; omega)
    | ⟨2, _⟩ => exact Fin.ext rfl
  show X ((cfg0.win 3).xinj (grid0.coords t) y) = _
  rw [ex]
  exact h ⟨(y 2).val, l2⟩

/-- WHAT A FLUSHING POINT WRITES BACK is its block of `G`. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush3_iff t).mp hf
  have hN : cfg0.N = 256 := N_0
  have htl : t.val < cfg0.N := t.isLt
  have hb : t.val / 4 < 64 := by omega
  have e0 : (t.val - 3) / 4 = t.val / 4 := by omega
  have e1 : (t.val - 2) / 4 = t.val / 4 := by omega
  have e2 : (t.val - 1) / 4 = t.val / 4 := by omega
  have r0 : (t.val - 3) % 4 = 0 := by omega
  have r1 : (t.val - 2) % 4 = 1 := by omega
  have r2 : (t.val - 1) % 4 = 2 := by omega
  show (cfg0.win 3).cut (grid0.coords t) ((dats m 0 c).after 3 t) = _
  rw [after0_3, four_tiles m c ⟨t.val - 3, by omega⟩ ⟨t.val - 2, by omega⟩ ⟨t.val - 1, by omega⟩ t r0
    (show t.val - 2 = t.val - 3 + 1 by omega) (show t.val - 1 = t.val - 3 + 2 by omega) (show t.val = t.val - 3 + 3 by omega)]
  refine block_ext m c t hb _ (fun q => ?_)
  exact TileValue.close_four_steps _ _ _ _ _ _ _ _ _ _ _ _ q
    (Cert.Loss.scores (V m c main_arg0) (V m c main_v0) ⟨t.val / 4, hb⟩ q) (Cert.Loss.flags (V m c main_v1) ⟨t.val / 4, hb⟩ q)
    (fun l => tile_score m c ⟨t.val - 3, by omega⟩ ⟨t.val / 4, hb⟩ e0 q l _ (by show l.val = (t.val - 3) % 4 * 1024 + l.val; omega))
    (fun l => tile_score m c ⟨t.val - 2, by omega⟩ ⟨t.val / 4, hb⟩ e1 q l _ (by show 1024 + l.val = (t.val - 2) % 4 * 1024 + l.val; omega))
    (fun l => tile_score m c ⟨t.val - 1, by omega⟩ ⟨t.val / 4, hb⟩ e2 q l _ (by show 2048 + l.val = (t.val - 1) % 4 * 1024 + l.val; omega))
    (fun l => tile_score m c t ⟨t.val / 4, hb⟩ rfl q l _ (by show 3072 + l.val = t.val % 4 * 1024 + l.val; omega))
    (fun l => tile_flag m c ⟨t.val - 3, by omega⟩ ⟨t.val / 4, hb⟩ e0 q l _ (by show l.val = (t.val - 3) % 4 * 1024 + l.val; omega))
    (fun l => tile_flag m c ⟨t.val - 2, by omega⟩ ⟨t.val / 4, hb⟩ e1 q l _ (by show 1024 + l.val = (t.val - 2) % 4 * 1024 + l.val; omega))
    (fun l => tile_flag m c ⟨t.val - 1, by omega⟩ ⟨t.val / 4, hb⟩ e2 q l _ (by show 2048 + l.val = (t.val - 1) % 4 * 1024 + l.val; omega))
    (fun l => tile_flag m c t ⟨t.val / 4, hb⟩ rfl q l _ (by show 3072 + l.val = t.val % 4 * 1024 + l.val; omega))

/-- THE ARRAY after the run: `G`. -/
theorem final (c : Dev nD) : (dats m 0 c).arrAt 3 cfg0.N = G m c :=
  (dats m 0 c).arrAt_eq_of_cover 3 (G m c) (fun t hf => flushed_eq m c t hf) cover3

end Cert.KernelIdeal.KValue

end
-- ==== Proof.Tail.lean ====
/-
  The host lines after the kernel, as one function.

  After the region @main reshapes the [64, 1, 20] per-class losses to [64, 20], multiplies them by the indicator "label = 1",
  sums all 1280 products from zero and divides by 64. `total` is that composition; the result buffer after the run is `total`
  of the region's output array and of the label argument.
-/
import proofs.«175878_j38319698215597_2_alg».proof.Proof.Gen.KernelIdeal.Frame
import Idealize.ShloMosaic.Lib.Pipeline.Value
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.ShloMosaic.Tactic
open Idealize.SL Idealize.SL.Sem Idealize.ShloMosaic.StableHlo
open Cert.KernelIdeal Cert.KernelIdeal.Gen

/-- The loss from a [64, 20] array `pc` of per-class losses and the [64, 20] labels `lab`: the mean over the 64 images of the
    per-class losses of the classes labelled 1. -/
def total2 (pc : (⟨S64x20, .f32⟩ : BufTy).Contents (Elt Ideal)) (lab : (⟨S64x20, .i32⟩ : BufTy).Contents (Elt Ideal)) :
    (⟨S_, .f32⟩ : BufTy).Contents (Elt Ideal) :=
  Host.divf (Host.reduceAdd
      (mulf (uitofp .f32 (cmpi .eq lab (broadcastInDim S64x20 ![] bcast_S_S64x20 (constantI S_ 32 1#32)))) pc)
      (constant (F := Ideal) S_ .f32 0x00000000#32) reducesTo_S64x20_S_d0_1 h_S_)
    (constant (F := Ideal) S_ .f32 0x42800000#32)

/-- The same from the kernel's [64, 1, 20] output: its unit axis dropped first. -/
def total (pc : (⟨S64x1x20, .f32⟩ : BufTy).Contents (Elt Ideal)) (lab : (⟨S64x20, .i32⟩ : BufTy).Contents (Elt Ideal)) :
    (⟨S_, .f32⟩ : BufTy).Contents (Elt Ideal) :=
  total2 (shapeCast S64x20 pc shapeCasts_S64x1x20_S64x20) lab

variable (m : (ℓ : Loc nD τ sig) → Buf (Elt Ideal) ℓ)

/-- The buffers as the region leaves them: its arrays at what the run computed, every other buffer as on entry. -/
abbrev exitVal (c : Dev nD) : Valuation τ sig (Elt Ideal) :=
  Pipeline.withArrays (cfgs (0 : Fin 1)).spec c (V0 m c) fun w => (dats m 0 c).arrAt w (cfgs (0 : Fin 1)).N

/-- The result buffer after the host lines that follow the region. -/
theorem result_eq (c : Dev nD) :
    Pipeline.afterTail₀ cfgs (dats m) 0 (V0 m) [hostOps1] c main_v9
      = total (exitVal m c (Proc.devRef .tc main_v2)) (exitVal m c (Proc.devRef .tc main_arg3)) := by
  unfold Pipeline.afterTail₀
  show StableHlo.after hostOps1 _ (Proc.devRef .tc main_v9) = _
  after_results
  rfl

/-- The region's output array at its exit is what the run computed for window 3. -/
theorem exit_out (c : Dev nD) : exitVal m c (Proc.devRef .tc main_v2) = (dats m 0 c).arrAt 3 cfg0.N :=
  Pipeline.withArrays_arr spec0 launch0.win.arr_inj c _ _ 3

/-- The label argument is no window's array: at the region's exit it is as @main received it. -/
theorem exit_labels (c : Dev nD) : exitVal m c (Proc.devRef .tc main_arg3) = m ((c : Thread nD τ).loc main_arg3) :=
  (Pipeline.withArrays_of_ne _ c _ _ main_arg3 (by decide)).trans (V_main_arg3 m c)

end Cert.KernelIdeal.Tail

end
-- ==== Proof.KRun.lean ====
/-
  The idealized kernel's run, with its result named.

  Every weakly fair execution of @main terminates; the result buffer then holds `total` of the per-class array `G` (the region's
  output after the run) and of the label argument, and the four arguments are as they were.
-/
import proofs.«175878_j38319698215597_2_alg».proof.Proof.KValue
import proofs.«175878_j38319698215597_2_alg».proof.Proof.Tail

set_option maxRecDepth 16384

noncomputable section

namespace Cert.KernelIdeal.KRun

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The result after the host lines that follow the region: `total` of `G` and of the labels. -/
theorem result_value (c : Dev nD) :
    Pipeline.afterTail₀ cfgs (dats m) 0 (V0 m) [hostOps1] c main_v9
      = Tail.total (KValue.G m c) (m ((c : Thread nD τ).loc main_arg3)) := by
  rw [Tail.result_eq m c, Tail.exit_out m c, KValue.final m c, Tail.exit_labels m c]

theorem run : θ_run defs (onTc (τ := τ) (main (F := Ideal))) ⟨m, fun _ => 0, ρ⟩ (fun r => ∀ c : Dev nD,
      r.2.mem ((c.tc : Thread nD τ).loc main_v9) = Tail.total (KValue.G m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v9 (Pipeline.mem_restRefs_of main_v9 (by decide) (by decide))).trans (result_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KRun

end
-- ==== Proof.Algebra.lean ====
/-
  The algebra of the per-class loss: the shared float literals as real numbers, a score of real rows is real, and the
  two arrangements of the loss (position by position, and from three running sums) are one extended real when every
  score and flag is a real number.
-/
import proofs.«175878_j38319698215597_2_alg».proof.Proof.Spec
import Idealize.ShloMosaic.PureOps.Ideal.Laws

noncomputable section

namespace Cert.Loss

open Idealize.ShloMosaic

/-- The word `0x3F800000` denotes the real number `1`. -/
theorem oneW_eq : oneW = 1 := by
  simp [oneW, Ideal.ofBits, Ideal.ieee, -EReal.coe_mul]; norm_num

/-- The word `0x322BCC77` denotes a positive real number (about `1e-8`). -/
theorem epsNorm_pos : ∃ e : ℝ, 0 < e ∧ epsNorm = (e : EReal) := by
  refine ⟨((2 ^ 23 + 0x2BCC77 : ℕ) : ℝ) * (2 : ℝ) ^ ((100 : ℤ) - 127 - 23), by positivity, ?_⟩
  simp [epsNorm, Ideal.ofBits, Ideal.ieee, -EReal.coe_mul]

/-- The word `0x38D1B717` denotes a positive real number (about `1e-4`). -/
theorem epsDen_pos : ∃ e : ℝ, 0 < e ∧ epsDen = (e : EReal) := by
  refine ⟨((2 ^ 23 + 0x51B717 : ℕ) : ℝ) * (2 : ℝ) ^ ((113 : ℤ) - 127 - 23), by positivity, ?_⟩
  simp [epsDen, Ideal.ofBits, Ideal.ieee, -EReal.coe_mul]

/-- A finite sum of real numbers, read in the extended reals, is the real sum. -/
private theorem sum_coe {ι : Type} (t : Finset ι) (g : ι → ℝ) :
    (∑ n ∈ t, ((g n : ℝ) : EReal)) = ((∑ n ∈ t, g n : ℝ) : EReal) := by
  classical
  induction t using Finset.induction_on with
  | empty => simp
  | insert a t ha ih => rw [Finset.sum_insert ha, Finset.sum_insert ha, ih, EReal.coe_add]

/-- A row of real numbers has a positive real scale: the larger of its Euclidean norm and `ε₁`. -/
private theorem rowScale_real {K : Type} [Fintype K] (ar : K → ℝ) :
    ∃ m : ℝ, 0 < m ∧ rowScale (fun d => ((ar d : ℝ) : EReal)) = (m : EReal) := by
  obtain ⟨e, he, hE⟩ := epsNorm_pos
  have hsq : (∑ i, ((ar i : ℝ) : EReal) * ((ar i : ℝ) : EReal)) = ((∑ i, ar i * ar i : ℝ) : EReal) := by
    rw [← sum_coe]; simp only [EReal.coe_mul]
  have hnn : 0 ≤ ∑ i, ar i * ar i := Finset.sum_nonneg (fun i _ => mul_self_nonneg _)
  refine ⟨max (Real.sqrt (∑ i, ar i * ar i)) e, lt_max_of_lt_right he, ?_⟩
  rw [rowScale, hsq, Ideal.sqrt_coe, if_neg (not_lt.mpr hnn), hE]
  exact (EReal.coe_strictMono.monotone.map_max).symm

/-- a row and a column of real numbers have a real score -/
theorem score_real {K : Type} [Fintype K] (a p : K → EReal)
    (ha : ∀ d, ∃ r : ℝ, a d = (r : EReal)) (hp : ∀ d, ∃ r : ℝ, p d = (r : EReal)) :
    ∃ r : ℝ, score a p = (r : EReal) := by
  choose ar har using ha
  choose pr hpr using hp
  obtain rfl : a = fun d => ((ar d : ℝ) : EReal) := funext har
  obtain rfl : p = fun d => ((pr d : ℝ) : EReal) := funext hpr
  obtain ⟨m, hm, hM⟩ := rowScale_real ar
  -- each quotient `a d / m` is the real `a d · (1 / m)`, so the inner product is a real sum
  have hsum : (∑ d, Ideal.div ((ar d : ℝ) : EReal) (m : EReal) * ((pr d : ℝ) : EReal))
      = ((∑ d, ar d * (1 / m) * pr d : ℝ) : EReal) := by
    rw [← sum_coe]
    refine Finset.sum_congr rfl (fun d _ => ?_)
    rw [Ideal.div_coe hm.ne', EReal.coe_mul, EReal.coe_mul]
  refine ⟨(∑ d, ar d * (1 / m) * pr d) * (1 / 1), ?_⟩
  rw [score, hM, hsum, oneW_eq, ← EReal.coe_one, Ideal.div_coe one_ne_zero, ← EReal.coe_mul]

/-- for real scores and real flags the two arrangements of the loss are one extended real -/
theorem stream_eq_point {ι : Type} [Fintype ι] (s f : ι → EReal)
    (hs : ∀ n, ∃ r : ℝ, s n = (r : EReal)) (hf : ∀ n, ∃ r : ℝ, f n = (r : EReal)) :
    streamLoss s f = pointLoss s f := by
  choose sr hsr using hs
  choose fr hfr using hf
  obtain rfl : s = fun n => ((sr n : ℝ) : EReal) := funext hsr
  obtain rfl : f = fun n => ((fr n : ℝ) : EReal) := funext hfr
  obtain ⟨e, he, hE⟩ := epsDen_pos
  -- the common denominator `D = ∑ exp (s n) + ε₂` is a positive real
  obtain ⟨D, hD⟩ : ∃ D : ℝ, D = (∑ n, Real.exp (sr n)) + e := ⟨_, rfl⟩
  have hDpos : 0 < D := by
    rw [hD]; exact add_pos_of_nonneg_of_pos (Finset.sum_nonneg (fun n _ => (Real.exp_pos _).le)) he
  have hden : (∑ k, Ideal.exp ((sr k : ℝ) : EReal)) + epsDen = (D : EReal) := by
    simp only [Ideal.exp_coe]
    rw [hE, hD, EReal.coe_add, ← sum_coe]
  have hlogD : Ideal.log (D : EReal) = ((Real.log D : ℝ) : EReal) := by
    rw [Ideal.log_coe, if_neg (not_le.mpr hDpos)]
  -- `log (exp s / D) = s - log D` for a real `s` and a positive real `D`
  have hterm : ∀ n, Ideal.log (Ideal.div (Ideal.exp ((sr n : ℝ) : EReal)) (D : EReal))
      = ((sr n - Real.log D : ℝ) : EReal) := by
    intro n
    have hq : 0 < Real.exp (sr n) * (1 / D) := mul_pos (Real.exp_pos _) (one_div_pos.mpr hDpos)
    rw [Ideal.exp_coe, Ideal.div_coe hDpos.ne', ← EReal.coe_mul, Ideal.log_coe, if_neg (not_le.mpr hq)]
    congr 1
    rw [mul_one_div, Real.log_div (Real.exp_pos _).ne' hDpos.ne', Real.log_exp]
  have h1 : (∑ n, ((fr n : ℝ) : EReal) * ((sr n : ℝ) : EReal)) = ((∑ n, fr n * sr n : ℝ) : EReal) := by
    rw [← sum_coe]; simp only [EReal.coe_mul]
  have h2 : (∑ n, ((fr n : ℝ) : EReal)) = ((∑ n, fr n : ℝ) : EReal) := sum_coe _ _
  have h3 : (∑ n, ((fr n : ℝ) : EReal) * -((sr n - Real.log D : ℝ) : EReal))
      = ((∑ n, fr n * -(sr n - Real.log D) : ℝ) : EReal) := by
    rw [← sum_coe]; simp only [EReal.coe_mul, EReal.coe_neg]
  -- the two sides divide by the same `∑ f n + ε₂`: compare the numerators
  unfold streamLoss pointLoss
  congr 1
  rw [hden, hlogD]
  simp only [hterm]
  rw [h1, h2, h3, ← EReal.coe_zero, ← EReal.coe_sub, ← EReal.coe_mul, ← EReal.coe_add]
  congr 1
  -- in the reals: `(0 - ∑ f·s) + log D · ∑ f = ∑ f · (-(s - log D))`
  rw [Finset.mul_sum, zero_sub, ← Finset.sum_neg_distrib, ← Finset.sum_add_distrib]
  exact Finset.sum_congr rfl (fun n _ => by ring)

end Cert.Loss

end
-- ==== Proof.RefRead.lean ====
/-
  The reference program's [64, 20] array of per-class losses, read at an index, is the specification `perClassPoint`.

  The reference computes, for image `b` and class `c`: the row's Euclidean norm (square root of the sum of squares), its
  maximum with ε₁, the row divided by that, the inner products with the columns of the patch tokens divided by the
  temperature 1 (the scores), their exponentials, the sum of these plus ε₂, the ratio of each exponential to that, minus
  its logarithm, the flag "the mask at the position is class c + 1" as a number, the flagged sum of the minus-logarithms
  and the sum of the flags plus ε₂, and the quotient of the last two. Read at one index each of these is the
  corresponding piece of the specification; the sums start from the zero word, which is the number 0.
-/
import proofs.«175878_j38319698215597_2_alg».proof.Proof.Gen.ReferenceIdeal.Read
import proofs.«175878_j38319698215597_2_alg».proof.Proof.Spec

noncomputable section

namespace Cert.Loss.RefRead

open Idealize.ShloMosaic Idealize.ShloMosaic.ValueIdx Cert.ReferenceIdeal Cert.ReferenceIdeal.Read

/-! ## The indices the layout operations read at, by coordinates -/

theorem idx_sq (b : Fin 64) (c : Fin 20) (k : Fin 768) : idx_main_call0_v1 (ix2 b c) k = ix3 b c k :=
  funext fun a => Fin.ext (by match a with | ⟨0, _⟩ => rfl | ⟨1, _⟩ => rfl | ⟨2, _⟩ => rfl)

theorem idx_norm (b : Fin 64) (c : Fin 20) (z : Fin 1) : idx_main_call0_v2 (ix3 b c z) = ix2 b c :=
  funext fun a => Fin.ext (by match a with | ⟨0, _⟩ => rfl | ⟨1, _⟩ => rfl)

theorem idx_scale (b : Fin 64) (c : Fin 20) (d : Fin 768) : idx_main_v3 (ix3 b c d) = ix3 b c (0 : Fin 1) :=
  funext fun a => Fin.ext (by match a with | ⟨0, _⟩ => rfl | ⟨1, _⟩ => rfl | ⟨2, _⟩ => rfl)

theorem idx_lhs (b : Fin 64) (c : Fin 20) (n : Fin 4096) (k : Fin 768) : lidx_main_v6 (ix3 b c n) k = ix3 b c k :=
  funext fun a => Fin.ext (by match a with | ⟨0, _⟩ => rfl | ⟨1, _⟩ => rfl | ⟨2, _⟩ => rfl)

theorem idx_rhs (b : Fin 64) (c : Fin 20) (n : Fin 4096) (k : Fin 768) : ridx_main_v6 (ix3 b c n) k = ix3 b k n :=
  funext fun a => Fin.ext (by match a with | ⟨0, _⟩ => rfl | ⟨1, _⟩ => rfl | ⟨2, _⟩ => rfl)

theorem idx_pos (b : Fin 64) (c : Fin 20) (k : Fin 4096) : idx_main_v10 (ix2 b c) k = ix3 b c k :=
  funext fun a => Fin.ext (by match a with | ⟨0, _⟩ => rfl | ⟨1, _⟩ => rfl | ⟨2, _⟩ => rfl)

theorem idx_den (b : Fin 64) (c : Fin 20) (n : Fin 4096) : idx_main_v14 (ix3 b c n) = ix3 b c (0 : Fin 1) :=
  funext fun a => Fin.ext (by match a with | ⟨0, _⟩ => rfl | ⟨1, _⟩ => rfl | ⟨2, _⟩ => rfl)

theorem idx_den' (b : Fin 64) (c : Fin 20) (z : Fin 1) : idx_main_v11 (ix3 b c z) = ix2 b c :=
  funext fun a => Fin.ext (by match a with | ⟨0, _⟩ => rfl | ⟨1, _⟩ => rfl)

theorem idx_mask (b : Fin 64) (c : Fin 20) (n : Fin 4096) : idx_main_v23 (ix3 b c n) = ix3 b (0 : Fin 1) n :=
  funext fun a => Fin.ext (by match a with | ⟨0, _⟩ => rfl | ⟨1, _⟩ => rfl | ⟨2, _⟩ => rfl)

theorem idx_class (b : Fin 64) (c : Fin 20) (n : Fin 4096) : idx_main_v22 (idx_main_v24 (ix3 b c n)) = ix1 c :=
  funext fun a => Fin.ext (by match a with | ⟨0, _⟩ => rfl)

theorem idx_num (b : Fin 64) (c : Fin 20) (k : Fin 4096) : idx_main_v28 (ix2 b c) k = ix3 b c k :=
  funext fun a => Fin.ext (by match a with | ⟨0, _⟩ => rfl | ⟨1, _⟩ => rfl | ⟨2, _⟩ => rfl)

theorem idx_cnt (b : Fin 64) (c : Fin 20) (k : Fin 4096) : idx_main_v29 (ix2 b c) k = ix3 b c k :=
  funext fun a => Fin.ext (by match a with | ⟨0, _⟩ => rfl | ⟨1, _⟩ => rfl | ⟨2, _⟩ => rfl)

/-! ## The pieces -/

/-- The reference's clamped norm of row `(b, c)` is the specification's `rowScale` of that row. -/
theorem ref_rowScale (x0 : (⟨S64x20x768, .f32⟩ : BufTy).Contents (Elt Ideal)) (b : Fin 64) (c : Fin 20) :
    val_main_v2 (F := Ideal) x0 (ix3 b c (0 : Fin 1)) = rowScale (fun d : Fin 768 => x0 (ix3 b c d)) := by
  rw [val_main_v2_apply, val_main_v0_apply, val_main_call0_v2_apply, idx_norm, val_main_call0_v1_apply,
    val_main_v1_apply, val_main_cst_apply, val_main_call0_cst_apply]
  simp only [idx_sq, val_main_call0_v0_apply, Ideal.maximumf_def, Ideal.hostUnary_sqrt_def, Ideal.mulf_def,
    Ideal.ofBits_def, Ideal.ofBits_zero_f32, zero_add]
  rfl

/-- The reference's score array at `(b, c, n)` is the specification's score of row `(b, c)` against column `n`. -/
theorem ref_score (x0 : (⟨S64x20x768, .f32⟩ : BufTy).Contents (Elt Ideal))
    (x1 : (⟨S64x768x64x64, .f32⟩ : BufTy).Contents (Elt Ideal)) (b : Fin 64) (c : Fin 20) (n : Fin 4096) :
    val_main_v8 (F := Ideal) x0 x1 (ix3 b c n) = scores x0 (val_main_v5 (F := Ideal) x1) b c n := by
  rw [val_main_v8_apply, val_main_v6_apply, val_main_v7_apply, val_main_cst_0_apply]
  simp only [idx_lhs, idx_rhs, val_main_v4_apply, val_main_v3_apply, idx_scale, ref_rowScale, Ideal.hostDivf_def,
    Ideal.ofBits_def]
  rfl

/-- The reference's flag at `(b, c, n)` is the specification's flag of the mask word at `(b, 0, n)` for class `c`. -/
theorem ref_flag (x2 : (⟨S64x64x64, .i32⟩ : BufTy).Contents (Elt Ideal)) (b : Fin 64) (c : Fin 20) (n : Fin 4096) :
    val_main_v26 (F := Ideal) x2 (ix3 b c n) = flags (val_main_v18 (F := Ideal) x2) b c n := by
  rw [val_main_v26_apply, val_main_v25_apply, val_main_v23_apply, idx_mask, val_main_v24_apply, val_main_v22_apply,
    idx_class, val_main_v21_apply, val_main_v20_apply, val_main_c_apply, val_main_v19_apply]
  rfl

/-! ## The per-class loss -/

/-- The reference's [64, 20] array of per-class losses at `(b, c)` is the specification's position-by-position loss of
    the scores and flags of that pair: numerator the flagged sum of `-log (exp s / (∑ exp s + ε₂))`, denominator the
    sum of the flags plus ε₂, both sums started from the number 0. -/
theorem ref_perClass (x0 : (⟨Cert.ReferenceIdeal.S64x20x768, .f32⟩ : BufTy).Contents (Elt Ideal))
    (x1 : (⟨Cert.ReferenceIdeal.S64x768x64x64, .f32⟩ : BufTy).Contents (Elt Ideal))
    (x2 : (⟨Cert.ReferenceIdeal.S64x64x64, .i32⟩ : BufTy).Contents (Elt Ideal)) (b : Fin 64) (c : Fin 20) :
    Cert.ReferenceIdeal.Read.val_main_v32 (F := Ideal) x0 x1 x2 (ValueIdx.ix2 b c)
      = Cert.Loss.perClassPoint x0 (Cert.ReferenceIdeal.Read.val_main_v5 (F := Ideal) x1) (Cert.ReferenceIdeal.Read.val_main_v18 (F := Ideal) x2) b c := by
  rw [val_main_v32_apply, val_main_v28_apply, val_main_v31_apply, val_main_v29_apply, val_main_v30_apply,
    val_main_cst_5_apply, val_main_cst_3_apply, val_main_cst_4_apply]
  simp only [idx_num, idx_cnt, val_main_v27_apply, ref_flag, val_main_v17_apply, val_main_v16_apply, val_main_v15_apply,
    val_main_v9_apply, ref_score, val_main_v14_apply, idx_den, val_main_v13_apply, val_main_v11_apply, idx_den',
    val_main_v10_apply, idx_pos, val_main_v12_apply, val_main_cst_2_apply, val_main_cst_1_apply, Ideal.hostDivf_def,
    Ideal.hostUnary_exp_def, Ideal.hostUnary_log_def, Ideal.hostNegf_def, Ideal.negf_def, Ideal.mulf_def, Ideal.addf_def,
    Ideal.ofBits_def, Ideal.ofBits_zero_f32, zero_add]
  rfl

end Cert.Loss.RefRead

end
-- ==== Proof.Bridge.lean ====
/-
  The bridge between the two programs' per-class losses.

  On real class tokens and real patch tokens every score is a real number (a real row over its positive real scale,
  against a real column, over the temperature 1) and every flag is, by definition, 0 or 1; so the loss written position
  by position and the loss written from three running sums are one extended real. Reshaping the patch tokens only
  renames positions, so it keeps every entry real. Hence the reference's [64, 20] entry, which is the
  position-by-position loss, is also the three-sums loss. Last, the kernel's [64, 1, 20] result recast to [64, 20] reads
  at (b, c) the entry (b, 0, c): both have row-major position 20·b + c.
-/
import proofs.«175878_j38319698215597_2_alg».proof.Proof.Algebra
import proofs.«175878_j38319698215597_2_alg».proof.Proof.RefRead
import proofs.«175878_j38319698215597_2_alg».proof.Proof.Spec
import proofs.«175878_j38319698215597_2_alg».proof.Proof.Gen.KernelIdeal
import Idealize.ShloMosaic.Lib.Pipeline.Value
import Idealize.ShloMosaic.Lib.ValueLayout

noncomputable section

namespace Cert.Loss.Bridge

open Idealize.ShloMosaic Idealize.ShloMosaic.ValueIdx

/-- on real tokens and patches the two arrangements of the per-class loss agree -/
theorem perClass_agree (x0 : (⟨3, ![64, 20, 768]⟩ : Shape).Idx → EReal) (x1 : (⟨3, ![64, 768, 4096]⟩ : Shape).Idx → EReal)
    (x2 : (⟨3, ![64, 1, 4096]⟩ : Shape).Idx → BitVec 32)
    (h0 : ∀ i, ∃ r : ℝ, x0 i = (r : EReal)) (h1 : ∀ i, ∃ r : ℝ, x1 i = (r : EReal)) (b : Fin 64) (c : Fin 20) :
    Cert.Loss.perClassStream x0 x1 x2 b c = Cert.Loss.perClassPoint x0 x1 x2 b c := by
  unfold Cert.Loss.perClassStream Cert.Loss.perClassPoint
  exact Cert.Loss.stream_eq_point _ _ (fun n => Cert.Loss.score_real _ _ (fun d => h0 _) (fun d => h1 _))
    (fun n => ⟨_, rfl⟩)

/-- reshaping the patches keeps every entry real -/
theorem patches_real (x1 : (⟨Cert.ReferenceIdeal.S64x768x64x64, .f32⟩ : BufTy).Contents (Elt Ideal))
    (h : ∀ i, ∃ r : ℝ, x1 i = (r : EReal)) :
    ∀ i, ∃ r : ℝ, Cert.ReferenceIdeal.Read.val_main_v5 (F := Ideal) x1 i = (r : EReal) := by
  intro i
  rw [Cert.ReferenceIdeal.Read.val_main_v5_apply]
  exact h _

/-- the reference's [64, 20] entry in the three-sums arrangement -/
theorem ref_stream (x0 : (⟨Cert.ReferenceIdeal.S64x20x768, .f32⟩ : BufTy).Contents (Elt Ideal))
    (x1 : (⟨Cert.ReferenceIdeal.S64x768x64x64, .f32⟩ : BufTy).Contents (Elt Ideal))
    (x2 : (⟨Cert.ReferenceIdeal.S64x64x64, .i32⟩ : BufTy).Contents (Elt Ideal))
    (h0 : ∀ i, ∃ r : ℝ, x0 i = (r : EReal)) (h1 : ∀ i, ∃ r : ℝ, x1 i = (r : EReal)) (b : Fin 64) (c : Fin 20) :
    Cert.ReferenceIdeal.Read.val_main_v32 (F := Ideal) x0 x1 x2 (ValueIdx.ix2 b c)
      = Cert.Loss.perClassStream x0 (Cert.ReferenceIdeal.Read.val_main_v5 (F := Ideal) x1) (Cert.ReferenceIdeal.Read.val_main_v18 (F := Ideal) x2) b c :=
  (Cert.Loss.RefRead.ref_perClass x0 x1 x2 b c).trans
    (perClass_agree x0 _ _ h0 (patches_real x1 h1) b c).symm

/-- the kernel's [64, 1, 20] result recast to [64, 20], read at (b, c) -/
theorem drop_mid (pc : (⟨Cert.KernelIdeal.S64x1x20, .f32⟩ : BufTy).Contents (Elt Ideal)) (b : Fin 64) (c : Fin 20) :
    shapeCast Cert.KernelIdeal.S64x20 pc Cert.KernelIdeal.Gen.shapeCasts_S64x1x20_S64x20 (ValueIdx.ix2 b c)
      = pc (ValueIdx.ix3 b (0 : Fin 1) c) :=
  shapeCast_apply pc _ _ _ (by
    rw [Shape.rowMajor_val_three, Shape.rowMajor_val_two]
    show (b.val * 1 + 0) * 20 + c.val = b.val * 20 + c.val
    omega)

end Cert.Loss.Bridge

end
-- ==== Proof.Entry.lean ====
/-
  What the two host reshapes before the kernel leave in their buffers: the patch tokens viewed `[64, 768, 4096]` and the
  masks viewed `[64, 1, 4096]`, stated as the reference's own reshape stages of the same arguments, so that both programs
  speak of the same arrays.
-/
import proofs.«175878_j38319698215597_2_alg».proof.Proof.Gen.KernelIdeal.Frame
import proofs.«175878_j38319698215597_2_alg».proof.Proof.Gen.ReferenceIdeal.Read
import Idealize.ShloMosaic.Lib.StableHlo.Run
import Idealize.ShloMosaic.PureOps.Ideal

noncomputable section

namespace Cert.KernelIdeal.Entry

open Idealize.ShloMosaic Idealize.ShloMosaic.TcCoe Idealize.ShloMosaic.Tactic Idealize.SL Idealize.SL.Sem
  Idealize.ShloMosaic.StableHlo Cert.KernelIdeal Cert.KernelIdeal.Gen

variable (m : (ℓ : Loc nD τ sig) → Buf (Elt Ideal) ℓ)

/-- When the kernel is entered the patch-token buffer holds the second argument viewed `[64, 768, 4096]`: the same
    row-major reshape the reference takes of it. -/
theorem V_patches (c : Dev nD) :
    (V m c main_v0 : S64x768x4096.Idx → EReal) = Cert.ReferenceIdeal.Read.val_main_v5 (F := Ideal) (m ((c : Thread nD τ).loc main_arg1)) := by
  show StableHlo.after hostOps0 (fun b => m (c, b)) (Proc.devRef .tc main_v0) = _
  after_results
  rfl

/-- When the kernel is entered the mask buffer holds the third argument viewed `[64, 1, 4096]`: the same row-major
    reshape the reference takes of it. -/
theorem V_masks (c : Dev nD) :
    (V m c main_v1 : S64x1x4096.Idx → BitVec 32) = Cert.ReferenceIdeal.Read.val_main_v18 (F := Ideal) (m ((c : Thread nD τ).loc main_arg2)) := by
  show StableHlo.after hostOps0 (fun b => m (c, b)) (Proc.devRef .tc main_v1) = _
  after_results
  rfl

end Cert.KernelIdeal.Entry

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.Finite.lean ====
/-
  From the precondition to "every entry of the two float arguments is a real number".

  The precondition compares, entry by entry, the absolute value of each float argument with the word of +∞ and reduces
  the one-bit answers by "and" over all axes, then takes the "and" of the two results. If the final bit is 1, both
  reductions are 1, so every one-bit answer is 1, and an entry whose absolute value is below +∞ is a real number.
-/
import proofs.«175878_j38319698215597_2_alg».proof.Pre_finite_inputs
import proofs.«175878_j38319698215597_2_alg».proof.Proof.LibFiniteTest
import Idealize.ShloMosaic.Lib.ReduceAll
import Idealize.ShloMosaic.Lib.ValueIdx
import Idealize.ShloMosaic.PureOps.Ideal.Laws

noncomputable section

namespace Cert.Loss

open Idealize.ShloMosaic

/-- The rank-zero shape has exactly one index. -/
instance subsingleton_scalar_idx : Subsingleton Cert.Pre_finite_inputs.S_.Idx :=
  ⟨fun a b => funext fun d => d.elim0⟩

/-- If the precondition holds (its single bit is 1), every entry of the class tokens and every entry of the patch
    tokens is a real number: each entry passed the test |x| < +∞. -/
theorem reals_of_pre [Cert.Pre_finite_inputs.Facts]
    (a0 : FVec Ideal Cert.Pre_finite_inputs.S64x20x768 .f32) (a1 : FVec Ideal Cert.Pre_finite_inputs.S64x768x64x64 .f32)
    (a2 : IVec Cert.Pre_finite_inputs.S64x64x64 32) (a3 : IVec Cert.Pre_finite_inputs.S64x20 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  unfold Cert.Pre_finite_inputs.fn at h0
  dsimp only at h0
  obtain ⟨hA, hB⟩ := IntOp.andi_eq_one.1 h0
  refine ⟨fun i => ?_, fun i => ?_⟩
  · have := Host.reduce_andi_all _ _ _ _ _ hA i
    exact Cert.LibFiniteTest.real_of_test (a0 i) this
  · have := Host.reduce_andi_all _ _ _ _ _ hB i
    exact Cert.LibFiniteTest.real_of_test (a1 i) this

end Cert.Loss

end
-- ==== Proof.Agree.lean ====
/-
  The two results are one extended real.

  Both programs end with the same host lines (`total2`) applied to a [64, 20] array of per-class losses: the reference's own,
  and the kernel's [64, 1, 20] output with its unit axis dropped. Entry by entry these are the position-by-position loss and
  the three-sums loss of the same scores and flags, and they agree because the precondition makes every token and patch entry a
  real number.
-/
import proofs.«175878_j38319698215597_2_alg».proof.Proof.KValue
import proofs.«175878_j38319698215597_2_alg».proof.Proof.Tail
import proofs.«175878_j38319698215597_2_alg».proof.Proof.Bridge
import proofs.«175878_j38319698215597_2_alg».proof.Proof.Entry
import proofs.«175878_j38319698215597_2_alg».proof.Proof.Finite

set_option maxRecDepth 16384

noncomputable section

namespace Cert.Loss.Agree

open Idealize.ShloMosaic Idealize.ShloMosaic.TcCoe Idealize.ShloMosaic.ValueIdx
open Idealize.SL Idealize.SL.Sem
open Cert.KernelIdeal Cert.KernelIdeal.Gen

/-- The reference's result is the common host tail of its own [64, 20] array of per-class losses. -/
theorem ref_total (x0 : (⟨Cert.ReferenceIdeal.S64x20x768, .f32⟩ : BufTy).Contents (Elt Ideal))
    (x1 : (⟨Cert.ReferenceIdeal.S64x768x64x64, .f32⟩ : BufTy).Contents (Elt Ideal))
    (x2 : (⟨Cert.ReferenceIdeal.S64x64x64, .i32⟩ : BufTy).Contents (Elt Ideal))
    (x3 : (⟨Cert.ReferenceIdeal.S64x20, .i32⟩ : BufTy).Contents (Elt Ideal)) :
    Cert.ReferenceIdeal.Read.val_main_v38 (F := Ideal) x0 x1 x2 x3
      = Cert.KernelIdeal.Tail.total2 (Cert.ReferenceIdeal.Read.val_main_v32 (F := Ideal) x0 x1 x2) x3 := rfl

variable [Cert.Pre_finite_inputs.Facts] (m : (ℓ : Loc nD τ sig) → Buf (Elt Ideal) ℓ)

/-- Under the precondition the reference's result, computed from the kernel's arguments, is the kernel's result. -/
theorem result_agree (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    Cert.ReferenceIdeal.Read.val_main_v38 (F := Ideal) (m ((c.tc : Thread nD τ).loc main_arg0)) (m ((c.tc : Thread nD τ).loc main_arg1))
        (m ((c.tc : Thread nD τ).loc main_arg2)) (m ((c.tc : Thread nD τ).loc main_arg3))
      = Cert.KernelIdeal.Tail.total (Cert.KernelIdeal.KValue.G m c) (m ((c.tc : Thread nD τ).loc main_arg3)) := by
  obtain ⟨h0, h1⟩ := Cert.Loss.reals_of_pre _ _ _ _ hpre
  rw [ref_total]
  unfold Cert.KernelIdeal.Tail.total
  refine congrArg (fun pc => Cert.KernelIdeal.Tail.total2 pc _) ?_
  funext i
  obtain ⟨b, q, rfl⟩ : ∃ (b : Fin 64) (q : Fin 20), i = ix2 b q := ⟨i 0, i 1, eq_ix2 i⟩
  rw [Cert.Loss.Bridge.drop_mid, Cert.Loss.Bridge.ref_stream _ _ _ h0 h1 b q]
  unfold Cert.KernelIdeal.KValue.G
  rw [V_main_arg0, Cert.KernelIdeal.Entry.V_patches, Cert.KernelIdeal.Entry.V_masks]

end Cert.Loss.Agree

end
-- ==== Proof.lean ====
/-
  The claim: a fused Pallas kernel for a masked contrastive segmentation loss against its jnp reference.

  For each image the kernel streams the 4096 patch positions in four tiles of 1024. Per class it keeps three running sums —
  of exp(score), of flag · score and of the flags — where the score is the normalised class token's inner product with the
  patch column and the flag says the mask names the class; after the last tile it writes (−Σ flag·score + log(Σ exp + ε) · Σ flag)
  / (Σ flag + ε). The reference computes −log(exp(score) / (Σ exp + ε)) at every position and takes the flagged mean. Over the
  extended reals, with every token and patch entry a real number (the precondition), log(exp s / D) = s − log D and a real factor
  distributes over a finite sum of reals, so the two per-class arrays agree entry by entry; both programs then apply the same
  host lines (labels, a full sum, a division by 64).

  The three frames: the two kernel programs' are the generated frame runs; the reference's is its generated run with the result
  dropped. The idealization rewrote nothing, so `preserves` is trivial. `algebraic`: the kernel's run with its result named
  (KRun), the reference's generated run, and the agreement of the two results (Agree).
-/
import proofs.«175878_j38319698215597_2_alg».proof.Defs
import proofs.«175878_j38319698215597_2_alg».proof.Proof.Gen.Kernel
import proofs.«175878_j38319698215597_2_alg».proof.Proof.Gen.Kernel.Skeleton
import proofs.«175878_j38319698215597_2_alg».proof.Proof.Gen.Kernel.Launch
import proofs.«175878_j38319698215597_2_alg».proof.Proof.Gen.Kernel.Points
import proofs.«175878_j38319698215597_2_alg».proof.Proof.Gen.Kernel.Frame
import proofs.«175878_j38319698215597_2_alg».proof.Proof.Gen.KernelIdeal
import proofs.«175878_j38319698215597_2_alg».proof.Proof.Gen.KernelIdeal.Skeleton
import proofs.«175878_j38319698215597_2_alg».proof.Proof.Gen.KernelIdeal.Launch
import proofs.«175878_j38319698215597_2_alg».proof.Proof.Gen.KernelIdeal.Points
import proofs.«175878_j38319698215597_2_alg».proof.Proof.Gen.KernelIdeal.Frame
import proofs.«175878_j38319698215597_2_alg».proof.Proof.Gen.ReferenceIdeal
import proofs.«175878_j38319698215597_2_alg».proof.Proof.Gen.ReferenceIdeal.Run
import proofs.«175878_j38319698215597_2_alg».proof.Proof.Gen.ReferenceIdeal.Read
import proofs.«175878_j38319698215597_2_alg».proof.Proof.Gen.Pre_finite_inputs
import proofs.«175878_j38319698215597_2_alg».proof.Proof.KRun
import proofs.«175878_j38319698215597_2_alg».proof.Proof.Agree
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the same loss: the kernel's result is the common
    host tail of its per-class array, the reference's generated run ends at its composed term, and under the precondition the
    two are equal. -/
theorem algebraic : Cert.algebraic_KernelIdeal_ReferenceIdeal := by
  intro m ρ m' ρ' hpre hagree
  refine ⟨fun c => Cert.KernelIdeal.Tail.total (Cert.KernelIdeal.KValue.G m c)
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2]
  exact Cert.Loss.Agree.result_agree m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
